-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩

abbrev nBuf : Space → Nat
  | .hbm => 132
  | .vmem => 62
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S100000, .f32⟩
  | 53 => ⟨S100000x1, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1x128, .f32⟩
  | 72 => ⟨S100000x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S1600000x1, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S1x128, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S1600000x1, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S1x128, .f32⟩
  | 110 => ⟨S100000x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S1600000x1, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S1x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x1, .f32⟩
  | .local _ .vmem, ⟨52, _⟩ => ⟨S2000x1, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S128x128, .f32⟩
  | .local _ .vmem, ⟨59, _⟩ => ⟨S1x128, .f32⟩
  | .local _ .vmem, ⟨60, _⟩ => ⟨S2000x128, .f32⟩
  | .local _ .vmem, ⟨61, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_c_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem3_1 : DmaSem sig := 61

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S100000x128.size a
  hwx5_4 : ∀ i : grid5.Coords, EltTy.bits .f32 = 32 ∨ (Rect.block (s := S100000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S100000x128.size a
  hwx7_4 : ∀ i : grid7.Coords, EltTy.bits .f32 = 32 ∨ (Rect.block (s := S100000x128) S2000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S100000x128.size a
  hwx8_3 : ∀ i : grid8.Coords, EltTy.bits .f32 = 32 ∨ (Rect.block (s := S100000x128) S2000x128.size (cc8_transform_3 i) (hinb8_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v30) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v93) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S2000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v94) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v95) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v96) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 225
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x1, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S1600000x1, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000, .f32⟩
  | 118 => ⟨S100000x1, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000, .f32⟩
  | 20 => ⟨S1600000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S1600000x1, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S100000, .f32⟩
  | 38 => ⟨S100000x1, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000, .f32⟩
  | 68 => ⟨S1600000, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S1600000x1, .f32⟩
  | 79 => ⟨S1600000x128, .f32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S100000, .f32⟩
  | 86 => ⟨S100000x1, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call2_cst : Ref sig .tc := ⟨.hbm, 125, rfl⟩
abbrev main_call2_v0 : Ref sig .tc := ⟨.hbm, 126, rfl⟩
abbrev main_v90 : Ref sig .tc := ⟨.hbm, 127, rfl⟩
abbrev main_v91 : Ref sig .tc := ⟨.hbm, 128, rfl⟩
abbrev main_c_16 : Ref sig .tc := ⟨.hbm, 129, rfl⟩
abbrev main_v92 : Ref sig .tc := ⟨.hbm, 130, rfl⟩
abbrev main_v93 : Ref sig .tc := ⟨.hbm, 131, rfl⟩
abbrev main_c_17 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_18 : Ref sig .tc := ⟨.hbm, 139, rfl⟩
abbrev main_v100 : Ref sig .tc := ⟨.hbm, 140, rfl⟩
abbrev main_v101 : Ref sig .tc := ⟨.hbm, 141, rfl⟩
abbrev main_c_19 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_20 : Ref sig .tc := ⟨.hbm, 149, rfl⟩
abbrev main_v108 : Ref sig .tc := ⟨.hbm, 150, rfl⟩
abbrev main_v109 : Ref sig .tc := ⟨.hbm, 151, rfl⟩
abbrev main_c_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_22 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_call3_cst : Ref sig .tc := ⟨.hbm, 173, rfl⟩
abbrev main_call3_v0 : Ref sig .tc := ⟨.hbm, 174, rfl⟩
abbrev main_v129 : Ref sig .tc := ⟨.hbm, 175, rfl⟩
abbrev main_v130 : Ref sig .tc := ⟨.hbm, 176, rfl⟩
abbrev main_c_23 : Ref sig .tc := ⟨.hbm, 177, rfl⟩
abbrev main_v131 : Ref sig .tc := ⟨.hbm, 178, rfl⟩
abbrev main_v132 : Ref sig .tc := ⟨.hbm, 179, rfl⟩
abbrev main_c_24 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_c_25 : Ref sig .tc := ⟨.hbm, 187, rfl⟩
abbrev main_v139 : Ref sig .tc := ⟨.hbm, 188, rfl⟩
abbrev main_v140 : Ref sig .tc := ⟨.hbm, 189, rfl⟩
abbrev main_c_26 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_c_27 : Ref sig .tc := ⟨.hbm, 197, rfl⟩
abbrev main_v147 : Ref sig .tc := ⟨.hbm, 198, rfl⟩
abbrev main_v148 : Ref sig .tc := ⟨.hbm, 199, rfl⟩
abbrev main_c_28 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_29 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel program's run, with its final buffer contents kept. The program is nine kernel regions among
  stretches of host operations; `Gen.W17` is the fold of all of them over the launch memory, the contents of every
  unscoped buffer when the last region has written back. Whatever follows from "every unscoped buffer ends at
  `W17`" holds of every final state of every weakly fair execution (`run_of_final`); in particular the result
  buffer ends at `W17` there and the thirteen arguments end as launched (`run_result`).
-/
import proofs.«171248_j55972013802295_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and any property of the final memory that
    follows from "on every core, every unscoped buffer holds the fold `W17` of the program's segments" holds there:
    the launch over the program's seventeen segments, the last thread state read against the final state. -/
theorem run_of_final {Q : PUnit × MemSt nD τ sig (Elt F) → Prop}
    (hQ : ∀ s : MemSt nD τ sig (Elt F),
      (∀ c : Dev nD, ∀ b ∈ Pipeline.ucRefs τ sig, s.mem (((c : Thread nD τ)).1, b) = W17 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := hQ)

/-- The run with the result named: the result buffer ends at the fold's value there, every argument as launched. -/
theorem run_result : θ_run defs (onTc (τ := τ) (main (F := F))) ⟨m, fun _ => 0, ρ⟩ (fun r => ∀ c : Dev nD,
      r.2.mem ((c.tc : Thread nD τ).loc main_v96) = W17 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_of_final m ρ (fun s h c =>
    ⟨h c _ (mem_uc main_v96 (by decide)),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c)⟩)

end Cert.KernelIdeal.GcnRun

end
-- ==== Proof.Spec.lean ====
/-
  The graph-convolution network both programs compute, written once as whole-array functions over the extended
  reals. A node feature matrix `h` (100000 × 128) goes through four convolution layers and a linear head. One layer:
  `hw = h · W`; every edge `(r, c)` with weight `w` sends `norm · hw[r]` to node `c`, where
  `norm = d[r] · w · d[c]` and `d = deg^(-1/2)` (zero where the degree is not positive), `deg[c] = 1 + Σ w` over
  the edges into `c`; the sums over incoming edges are the scatter-add `agg`; the layer's value is
  `agg + hw · d² + b`, followed by `max(·, 0)` in the first three layers. The head is `h · W_out + b_out`.
  Every function below is spelt with the host operations of the reference program, so that the reference's result
  term is this composition on the nose; the kernel's regions are shown to compute `mm`, `comb`, `relu ∘ comb` and
  `head` block by block.
-/
import proofs.«171248_j55972013802295_1_alg».proof.Proof.Gen.ReferenceIdeal
import Idealize.ShloMosaic.PureOps.Ideal

noncomputable section

namespace Cert.Gcn

open Idealize.ShloMosaic Cert.ReferenceIdeal Cert.ReferenceIdeal.Gen

abbrev Mat := FVec Ideal S100000x128 .f32
abbrev Wt := FVec Ideal S128x128 .f32
abbrev Bias := FVec Ideal S128 .f32
abbrev BiasRow := FVec Ideal S1x128 .f32
abbrev NodeCol := FVec Ideal S100000x1 .f32
abbrev NodeVec := FVec Ideal S100000 .f32
abbrev EdgeIdx := IVec S2x1600000 32
abbrev EdgeW := FVec Ideal S1600000 .f32
abbrev EdgeInt := IVec S1600000 32
abbrev EdgeIntCol := IVec S1600000x1 32
abbrev EdgeMat := FVec Ideal S1600000x128 .f32

/-- The all-zero feature matrix (the scatter-add's starting value, and the bound of `max(·, 0)`). -/
def zeroMat : Mat := broadcastInDim S100000x128 ![] bcast_S_S100000x128 (constant (F := Ideal) S_ .f32 0x00000000#32)
/-- The all-zero node vector. -/
def zeroVec : NodeVec := broadcastInDim S100000 ![] bcast_S_S100000 (constant (F := Ideal) S_ .f32 0x00000000#32)

/-- The source node of every edge: row 0 of the edge list. -/
def rowIdx (ei : EdgeIdx) : EdgeInt :=
  shapeCast _ (extractStridedSlice S1x1600000 ![0, 0] ei slices_S2x1600000_S1x1600000_0_0) shapeCasts_S1x1600000_S1600000
/-- The target node of every edge: row 1 of the edge list. -/
def colIdx (ei : EdgeIdx) : EdgeInt :=
  shapeCast _ (extractStridedSlice S1x1600000 ![1, 0] ei slices_S2x1600000_S1x1600000_1_0) shapeCasts_S1x1600000_S1600000

/-- A node index as a gather reads it: a negative index counts from the end (`ix + 100000`), as a column. -/
def wrap (ix : EdgeInt) : EdgeIntCol :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 100000#32))) ix)

/-- The target nodes as the scatter-adds read them (a column, not wrapped). -/
def colScatter (ei : EdgeIdx) : EdgeIntCol := broadcastInDim S1600000x1 ![0] bcast_S1600000_S1600000x1_0 (colIdx ei)

/-- The weighted in-degree of every node, plus one for its self loop. -/
def deg (ei : EdgeIdx) (ew : EdgeW) : NodeVec :=
  addf (Host.scatterAdd scatter_S100000_S1600000x1_S1600000_n_0_0_1 zeroVec (colScatter ei) ew)
    (broadcastInDim S100000 ![] bcast_S_S100000 (constant (F := Ideal) S_ .f32 0x3F800000#32))

/-- `deg^(-1/2)` where the degree is positive, zero elsewhere. -/
def dis (ei : EdgeIdx) (ew : EdgeW) : NodeVec :=
  select (cmpf .ogt (deg ei ew) zeroVec) (Host.rsqrt (deg ei ew))
    (broadcastInDim S100000 ![] bcast_S_S100000 (id (constant (F := Ideal) S_ .f32 0x00000000#32)))

/-- The normalised weight of every edge: `d[row] · w · d[col]`. -/
def norm (ei : EdgeIdx) (ew : EdgeW) : EdgeW :=
  mulf (mulf (Host.gather gather_S100000_S1600000x1_S1600000_n_0_n_n_0_1_1 (dis ei ew) (wrap (rowIdx ei))) ew)
    (Host.gather gather_S100000_S1600000x1_S1600000_n_0_n_n_0_1_1 (dis ei ew) (wrap (colIdx ei)))

/-- The self-loop weight `d²` of every node, as a column. -/
def selfCol (ei : EdgeIdx) (ew : EdgeW) : NodeCol :=
  broadcastInDim S100000x1 ![0] bcast_S100000_S100000x1_0 (mulf (dis ei ew) (dis ei ew))

/-- The dense transform `h · W`. -/
def mm (h : Mat) (W : Wt) : Mat := Host.dotGeneral dot_S100000x128_S128x128_S100000x128_1_0_0_1_n_n none h W

/-- The aggregation over incoming edges: node `c` receives `Σ norm · hw[row]` over the edges with target `c`. -/
def agg (rows : EdgeInt) (cols : EdgeInt) (nrm : EdgeW) (hw : Mat) : Mat :=
  Host.scatterAdd scatter_S100000x128_S1600000x1_S1600000x128_1_0_0_1 zeroMat
    (broadcastInDim S1600000x1 ![0] bcast_S1600000_S1600000x1_0 cols)
    (mulf (Host.gather gather_S100000x128_S1600000x1_S1600000x128_1_0_n_n_0_1_1128 hw (wrap rows))
      (broadcastInDim S1600000x128 ![0, 1] bcast_S1600000x1_S1600000x128_0_1
        (broadcastInDim S1600000x1 ![0] bcast_S1600000_S1600000x1_0 nrm)))

/-- A bias vector as one row. -/
def biasRow (b : Bias) : BiasRow := broadcastInDim S1x128 ![1] bcast_S128_S1x128_1 b

/-- One layer's combination `a + hw · s + b`, the column `s` and the row `b` spread over the matrix. -/
def comb (a hw : Mat) (s : NodeCol) (b : BiasRow) : Mat :=
  addf (addf a (mulf hw (broadcastInDim S100000x128 ![0, 1] bcast_S100000x1_S100000x128_0_1 s)))
    (broadcastInDim S100000x128 ![0, 1] bcast_S1x128_S100000x128_0_1 b)

/-- `max(·, 0)`, entry by entry. -/
def relu (x : Mat) : Mat := maximumf (F := Ideal) x zeroMat

/-- The linear head `h · W + b`. -/
def head (h : Mat) (W : Wt) (b : BiasRow) : Mat :=
  addf (mm h W) (broadcastInDim S100000x128 ![0, 1] bcast_S1x128_S100000x128_0_1 b)

/-- One convolution layer from the edge data `(rows, cols, nrm, s)`. -/
def conv (rows cols : EdgeInt) (nrm : EdgeW) (s : NodeCol) (h : Mat) (W : Wt) (b : Bias) : Mat :=
  comb (agg rows cols nrm (mm h W)) (mm h W) s (biasRow b)

/-- The whole network. -/
def net (x : Mat) (ei : EdgeIdx) (ew : EdgeW) (W0 : Wt) (b0 : Bias) (W1 : Wt) (b1 : Bias) (W2 : Wt) (b2 : Bias)
    (W3 : Wt) (b3 : Bias) (Wo : Wt) (bo : Bias) : Mat :=
  head (conv (rowIdx ei) (colIdx ei) (norm ei ew) (selfCol ei ew)
      (relu (conv (rowIdx ei) (colIdx ei) (norm ei ew) (selfCol ei ew)
        (relu (conv (rowIdx ei) (colIdx ei) (norm ei ew) (selfCol ei ew)
          (relu (conv (rowIdx ei) (colIdx ei) (norm ei ew) (selfCol ei ew) x W0 b0)) W1 b1)) W2 b2)) W3 b3)
    Wo (biasRow bo)

end Cert.Gcn

end
-- ==== Proof.ChainA.lean ====
/-
  The kernel program's buffers, boundary by boundary. The program alternates stretches of host operations and kernel
  regions; `Gen.Wk` is the contents of core `c`'s buffers at boundary `k`. This module names the values the network
  passes from layer to layer (functions of the launch memory `m`) and reads the first boundary: after the host
  operations before the first region the arguments are as launched, and the edge list has been cut into its source and
  target rows, the normalised edge weights and the self-loop column computed.
-/
import proofs.«171248_j55972013802295_1_alg».proof.Proof.Gen.KernelIdeal.Frame
import proofs.«171248_j55972013802295_1_alg».proof.Proof.Spec
import Idealize.ShloMosaic.Lib.StableHlo.Run

set_option maxRecDepth 16384

noncomputable section

namespace Cert.Gcn.Chain

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg) (c : Dev nD)

/-! ## The values passed along, as functions of the launch memory -/

/-- Source nodes, target nodes, normalised weights, self-loop column. -/
def rows : EdgeInt := rowIdx (m ((c : Thread nD τ).loc main_arg1))
def cols : EdgeInt := colIdx (m ((c : Thread nD τ).loc main_arg1))
def nrm : EdgeW := norm (m ((c : Thread nD τ).loc main_arg1)) (m ((c : Thread nD τ).loc main_arg2))
def sc : NodeCol := selfCol (m ((c : Thread nD τ).loc main_arg1)) (m ((c : Thread nD τ).loc main_arg2))
/-- Layer 1: the transformed features, their aggregate, the bias row, the layer's value. -/
def hw0 : Mat := mm (m ((c : Thread nD τ).loc main_arg0)) (m ((c : Thread nD τ).loc main_arg3))
def ag0 : Mat := agg (rows m c) (cols m c) (nrm m c) (hw0 m c)
def br0 : BiasRow := biasRow (m ((c : Thread nD τ).loc main_arg4))
def h1 : Mat := relu (comb (ag0 m c) (hw0 m c) (sc m c) (br0 m c))
/-- Layer 2. -/
def hw1 : Mat := mm (h1 m c) (m ((c : Thread nD τ).loc main_arg5))
def ag1 : Mat := agg (rows m c) (cols m c) (nrm m c) (hw1 m c)
def br1 : BiasRow := biasRow (m ((c : Thread nD τ).loc main_arg6))
def h2 : Mat := relu (comb (ag1 m c) (hw1 m c) (sc m c) (br1 m c))
/-- Layer 3. -/
def hw2 : Mat := mm (h2 m c) (m ((c : Thread nD τ).loc main_arg7))
def ag2 : Mat := agg (rows m c) (cols m c) (nrm m c) (hw2 m c)
def br2 : BiasRow := biasRow (m ((c : Thread nD τ).loc main_arg8))
def h3 : Mat := relu (comb (ag2 m c) (hw2 m c) (sc m c) (br2 m c))
/-- Layer 4 (no maximum). -/
def hw3 : Mat := mm (h3 m c) (m ((c : Thread nD τ).loc main_arg9))
def ag3 : Mat := agg (rows m c) (cols m c) (nrm m c) (hw3 m c)
def br3 : BiasRow := biasRow (m ((c : Thread nD τ).loc main_arg10))
def h4 : Mat := comb (ag3 m c) (hw3 m c) (sc m c) (br3 m c)
/-- The head. -/
def bro : BiasRow := biasRow (m ((c : Thread nD τ).loc main_arg12))
def result : Mat := head (h4 m c) (m ((c : Thread nD τ).loc main_arg11)) (bro m c)

/-- The values composed are the network of the launch arguments. -/
theorem result_eq : result m c = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

/-! ## Boundary 3: the entry of the first region -/

/-- Unfolds a stretch of host operations at one buffer: what is left is the operations' term over the contents before
    the stretch. -/
macro "host_fold" : tactic => `(tactic| (dsimp only [hostOps0, hostOps0_1, hostOps0_2, hostOps1, hostOps3, hostOps5, hostOps7, hostOps8]; after_results_simp))

structure At3 : Prop where
  a0 : W3 m ρ c (Proc.devRef .tc main_arg0) = (m ((c : Thread nD τ).loc main_arg0))
  a1 : W3 m ρ c (Proc.devRef .tc main_arg1) = (m ((c : Thread nD τ).loc main_arg1))
  a2 : W3 m ρ c (Proc.devRef .tc main_arg2) = (m ((c : Thread nD τ).loc main_arg2))
  a3 : W3 m ρ c (Proc.devRef .tc main_arg3) = (m ((c : Thread nD τ).loc main_arg3))
  a4 : W3 m ρ c (Proc.devRef .tc main_arg4) = (m ((c : Thread nD τ).loc main_arg4))
  a5 : W3 m ρ c (Proc.devRef .tc main_arg5) = (m ((c : Thread nD τ).loc main_arg5))
  a6 : W3 m ρ c (Proc.devRef .tc main_arg6) = (m ((c : Thread nD τ).loc main_arg6))
  a7 : W3 m ρ c (Proc.devRef .tc main_arg7) = (m ((c : Thread nD τ).loc main_arg7))
  a8 : W3 m ρ c (Proc.devRef .tc main_arg8) = (m ((c : Thread nD τ).loc main_arg8))
  a9 : W3 m ρ c (Proc.devRef .tc main_arg9) = (m ((c : Thread nD τ).loc main_arg9))
  a10 : W3 m ρ c (Proc.devRef .tc main_arg10) = (m ((c : Thread nD τ).loc main_arg10))
  a11 : W3 m ρ c (Proc.devRef .tc main_arg11) = (m ((c : Thread nD τ).loc main_arg11))
  a12 : W3 m ρ c (Proc.devRef .tc main_arg12) = (m ((c : Thread nD τ).loc main_arg12))
  v1 : W3 m ρ c (Proc.devRef .tc main_v1) = rows m c
  v3 : W3 m ρ c (Proc.devRef .tc main_v3) = cols m c
  v28 : W3 m ρ c (Proc.devRef .tc main_v28) = nrm m c
  v30 : W3 m ρ c (Proc.devRef .tc main_v30) = sc m c

/-! The edge normalisation's two results read at any float instance, as the host operations' own term over the launch
    arguments (the called `where` passes its values through typed references, which are the identity). -/
section AnyInstance
variable {F : FTy → Type} [FloatOps F] (mF : (ℓ : Loc nD τ sig) → Buf (Elt F) ℓ)

set_option maxHeartbeats 16000000 in
theorem raw_v28 : W3 mF ρ c (Proc.devRef .tc main_v28) = (mulf (mulf (Host.gather gather_S100000_S1600000x1_S1600000_n_0_n_n_0_1_1 (select (cmpf .ogt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32))) (broadcastInDim S100000 ![] bcast_S_S100000 (constant (F := F) S_ .f32 0x00000000#32))) (Host.rsqrt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32)))) (broadcastInDim S100000 ![] bcast_S_S100000 (id (constant (F := F) S_ .f32 0x00000000#32)))) (broadcastInDim S1600000x1 ![0] bcast_S1600000_S1600000x1_0 (select (cmpi .slt (shapeCast _ (extractStridedSlice S1x1600000 ![0, 0] (mF ((c : Thread nD τ).loc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (mF ((c : Thread nD τ).loc main_arg1)) slices_S2x1600000_S1x1600000_0_0) shapeCasts_S1x1600000_S1600000) (broadcastInDim S1600000 ![] bcast_S_S1600000 (constantI S_ 32 100000#32))) (shapeCast _ (extractStridedSlice S1x1600000 ![0, 0] (mF ((c : Thread nD τ).loc main_arg1)) slices_S2x1600000_S1x1600000_0_0) shapeCasts_S1x1600000_S1600000)))) (mF ((c : Thread nD τ).loc main_arg2))) (Host.gather gather_S100000_S1600000x1_S1600000_n_0_n_n_0_1_1 (select (cmpf .ogt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32))) (broadcastInDim S100000 ![] bcast_S_S100000 (constant (F := F) S_ .f32 0x00000000#32))) (Host.rsqrt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32)))) (broadcastInDim S100000 ![] bcast_S_S100000 (id (constant (F := F) S_ .f32 0x00000000#32)))) (broadcastInDim S1600000x1 ![0] bcast_S1600000_S1600000x1_0 (select (cmpi .slt (shapeCast _ (extractStridedSlice S1x1600000 ![1, 0] (mF ((c : Thread nD τ).loc main_arg1)) slices_S2x1600000_S1x1600000_1_0) shapeCasts_S1x1600000_S1600000) (broadcastInDim S1600000 ![] bcast_S_S1600000 (constantI S_ 32 0#32))) (addi (shapeCast _ (extractStridedSlice S1x1600000 ![1, 0] (mF ((c : Thread nD τ).loc main_arg1)) slices_S2x1600000_S1x1600000_1_0) shapeCasts_S1x1600000_S1600000) (broadcastInDim S1600000 ![] bcast_S_S1600000 (constantI S_ 32 100000#32))) (shapeCast _ (extractStridedSlice S1x1600000 ![1, 0] (mF ((c : Thread nD τ).loc main_arg1)) slices_S2x1600000_S1x1600000_1_0) shapeCasts_S1x1600000_S1600000))))) := by
  show StableHlo.after hostOps0_2 (StableHlo.after hostOps0_1 (StableHlo.after hostOps0 (W0 mF ρ c))) (Proc.devRef .tc main_v28) = _
  host_fold <;> rfl

set_option maxHeartbeats 16000000 in
theorem raw_v30 : W3 mF ρ c (Proc.devRef .tc main_v30) = (broadcastInDim S100000x1 ![0] bcast_S100000_S100000x1_0 (mulf (select (cmpf .ogt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32))) (broadcastInDim S100000 ![] bcast_S_S100000 (constant (F := F) S_ .f32 0x00000000#32))) (Host.rsqrt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32)))) (broadcastInDim S100000 ![] bcast_S_S100000 (id (constant (F := F) S_ .f32 0x00000000#32)))) (select (cmpf .ogt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32))) (broadcastInDim S100000 ![] bcast_S_S100000 (constant (F := F) S_ .f32 0x00000000#32))) (Host.rsqrt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (mF ((c : Thread nD τ).loc main_arg1)) slices_S2x1600000_S1x1600000_1_0) shapeCasts_S1x1600000_S1600000)) (mF ((c : Thread nD τ).loc main_arg2))) (broadcastInDim S100000 ![] bcast_S_S100000 (constant (F := F) S_ .f32 0x3F800000#32)))) (broadcastInDim S100000 ![] bcast_S_S100000 (id (constant (F := F) S_ .f32 0x00000000#32)))))) := by
  show StableHlo.after hostOps0_2 (StableHlo.after hostOps0_1 (StableHlo.after hostOps0 (W0 mF ρ c))) (Proc.devRef .tc main_v30) = _
  host_fold <;> rfl

end AnyInstance

set_option maxHeartbeats 16000000 in
theorem at3_a0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  host_fold <;> rfl

set_option maxHeartbeats 16000000 in
theorem at3_a1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  host_fold <;> rfl

set_option maxHeartbeats 16000000 in
theorem at3_a2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  host_fold <;> rfl

set_option maxHeartbeats 16000000 in
theorem at3_a3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  host_fold <;> rfl

set_option maxHeartbeats 16000000 in
theorem at3_a4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  host_fold <;> rfl

set_option maxHeartbeats 16000000 in
theorem at3_a5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  host_fold <;> rfl

set_option maxHeartbeats 16000000 in
theorem at3_a6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  host_fold <;> rfl

set_option maxHeartbeats 16000000 in
theorem at3_a7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  host_fold <;> rfl

set_option maxHeartbeats 16000000 in
theorem at3_a8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  host_fold <;> rfl

set_option maxHeartbeats 16000000 in
theorem at3_a9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  host_fold <;> rfl

set_option maxHeartbeats 16000000 in
theorem at3_a10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  host_fold <;> rfl

set_option maxHeartbeats 16000000 in
theorem at3_a11 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  host_fold <;> rfl

set_option maxHeartbeats 16000000 in
theorem at3_a12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  host_fold <;> rfl

set_option maxHeartbeats 16000000 in
theorem at3_v1 : W3 m ρ c (Proc.devRef .tc main_v1) = rows m c := by
  show StableHlo.after hostOps0_2 (StableHlo.after hostOps0_1 (StableHlo.after hostOps0 (W0 m ρ c))) (Proc.devRef .tc main_v1) = _
  host_fold <;> rfl

set_option maxHeartbeats 16000000 in
theorem at3_v3 : W3 m ρ c (Proc.devRef .tc main_v3) = cols m c := by
  show StableHlo.after hostOps0_2 (StableHlo.after hostOps0_1 (StableHlo.after hostOps0 (W0 m ρ c))) (Proc.devRef .tc main_v3) = _
  host_fold <;> rfl

theorem at3_v28 : W3 m ρ c (Proc.devRef .tc main_v28) = nrm m c := (raw_v28 (F := Ideal) ρ c m).trans rfl
theorem at3_v30 : W3 m ρ c (Proc.devRef .tc main_v30) = sc m c := (raw_v30 (F := Ideal) ρ c m).trans rfl

theorem at3 : At3 m ρ c where
  a0 := at3_a0 m ρ c
  a1 := at3_a1 m ρ c
  a2 := at3_a2 m ρ c
  a3 := at3_a3 m ρ c
  a4 := at3_a4 m ρ c
  a5 := at3_a5 m ρ c
  a6 := at3_a6 m ρ c
  a7 := at3_a7 m ρ c
  a8 := at3_a8 m ρ c
  a9 := at3_a9 m ρ c
  a10 := at3_a10 m ρ c
  a11 := at3_a11 m ρ c
  a12 := at3_a12 m ρ c
  v1 := at3_v1 m ρ c
  v3 := at3_v3 m ρ c
  v28 := at3_v28 m ρ c
  v30 := at3_v30 m ρ c

end Cert.Gcn.Chain

end
-- ==== Proof.Tiles.lean ====
/-
  What one grid point of each kernel computes on its blocks, read entry by entry over the extended reals, beside the
  same readings of the whole-array functions of `Spec`.
  A matmul kernel takes a block `X` of 2000 rows and the whole weight matrix `W` and stores `X · W`: entry `(r, q)`
  is `Σ_k X[r, k] · W[k, q]` (rounding the operands to bf16 first is the identity here, and the accumulator starts at
  zero). A combine kernel takes blocks `A`, `HW` of 2000 rows, the 2000 matching entries of the self-loop column `S`
  and the bias row `B`, and stores `A[r, q] + HW[r, q] · S[r, 0] + B[0, q]`, then (in the first three layers) its
  maximum with zero. The head kernel stores `Σ_k X[r, k] · W[k, q] + B[0, q]`.
-/
import proofs.«171248_j55972013802295_1_alg».proof.Proof.Gen.KernelIdeal.Skeleton
import proofs.«171248_j55972013802295_1_alg».proof.Proof.Gen.ReferenceIdeal.Read
import proofs.«171248_j55972013802295_1_alg».proof.Proof.Spec
import Idealize.ShloMosaic.Lib.ValueIdx
import Idealize.ShloMosaic.Lib.Pipeline.Value
import Idealize.ShloMosaic.PureOps.Ideal.Laws

noncomputable section

namespace Cert.Gcn.Tiles

open Idealize.ShloMosaic Cert.KernelIdeal Cert.KernelIdeal.Gen

/-! ## Index arithmetic of one 2000 × 128 block against the 128 × 128 weights -/

/-- Row `j 0` of the block at column `k`. -/
abbrev rowAt (j : S2000x128.Idx) (k : Fin 128) : S2000x128.Idx := fun a => match a with
  | ⟨0, _⟩ => ⟨(j 0).val, (j 0).isLt⟩
  | ⟨1, _⟩ => ⟨k.val, k.isLt⟩
/-- Row `k` of the weights at column `j 1`. -/
abbrev colAt (j : S2000x128.Idx) (k : Fin 128) : S128x128.Idx := fun a => match a with
  | ⟨0, _⟩ => ⟨k.val, k.isLt⟩
  | ⟨1, _⟩ => ⟨(j 1).val, (j 1).isLt⟩
/-- The entry of the self-loop column beside row `j 0`. -/
abbrev sideAt (j : S2000x128.Idx) : S2000x1.Idx := fun a => match a with
  | ⟨0, _⟩ => ⟨(j 0).val, (j 0).isLt⟩
  | ⟨1, _⟩ => ⟨0, Nat.zero_lt_one⟩
/-- The entry of the bias row above column `j 1`. -/
abbrev topAt (j : S2000x128.Idx) : S1x128.Idx := fun a => match a with
  | ⟨0, _⟩ => ⟨0, Nat.zero_lt_one⟩
  | ⟨1, _⟩ => ⟨(j 1).val, (j 1).isLt⟩

theorem lhs_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of a block and the weights into a zero accumulator, entry by entry: the plain sum. -/
theorem tile_dot (X : FVec Ideal S2000x128 .bf16) (W : FVec Ideal S128x128 .bf16) (j : S2000x128.Idx) :
    matmul (F := Ideal) dot_S2000x128_S128x128_S2000x128_1_0_0_1_n_n none X W (constant S2000x128 .f32 0x00000000#32) j
      = ∑ k : Fin 128, X (rowAt j k) * W (colAt j k) := by
  show FloatOps.matmul dot_S2000x128_S128x128_S2000x128_1_0_0_1_n_n none X W (constant S2000x128 .f32 0x00000000#32) j = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowAt j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = colAt j k := funext fun a => Fin.ext (by
    match a with
    | ⟨0, _⟩ => exact (rhs_0 _ _).trans hk
    | ⟨1, _⟩ => exact rhs_1 _ _)
  rw [el, er]

/-! ## The payloads -/

/-- First layer's matmul kernel. -/
theorem pay_mm0 (X : Vec Ideal S2000x128 .f32) (W : Vec Ideal S128x128 .f32) (j : S2000x128.Idx) :
    k0_pay1 (F := Ideal) X W j = ∑ k : Fin 128, X (rowAt j k) * W (colAt j k) := by
  unfold k0_pay1
  exact tile_dot _ _ j

/-- The later layers' matmul kernels (their block passes through a shape cast to its own shape first). -/
theorem pay_mm2 (X : Vec Ideal S2000x128 .f32) (W : Vec Ideal S128x128 .f32) (j : S2000x128.Idx) :
    k2_pay1 (F := Ideal) X W j = ∑ k : Fin 128, X (rowAt j k) * W (colAt j k) := by
  unfold k2_pay1
  rw [shapeCast_self]
  exact tile_dot _ _ j
theorem pay_mm4 (X : Vec Ideal S2000x128 .f32) (W : Vec Ideal S128x128 .f32) (j : S2000x128.Idx) :
    k4_pay1 (F := Ideal) X W j = ∑ k : Fin 128, X (rowAt j k) * W (colAt j k) := pay_mm2 X W j
theorem pay_mm6 (X : Vec Ideal S2000x128 .f32) (W : Vec Ideal S128x128 .f32) (j : S2000x128.Idx) :
    k6_pay1 (F := Ideal) X W j = ∑ k : Fin 128, X (rowAt j k) * W (colAt j k) := pay_mm2 X W j

/-- The self-loop column spread over the block, read at an entry. -/
theorem spread_side (S : Vec Ideal S2000x1 .f32) (j : S2000x128.Idx) :
    broadcastTo S2000x128 S broadcasts_S2000x1_S2000x128 j = S (sideAt j) :=
  broadcastTo_apply S _ j (sideAt j) (fun a => by
    match a with
    | ⟨0, _⟩ => rfl
    | ⟨1, _⟩ => rfl)
/-- The bias row spread over the block, read at an entry. -/
theorem spread_top (B : Vec Ideal S1x128 .f32) (j : S2000x128.Idx) :
    broadcastTo S2000x128 B broadcasts_S1x128_S2000x128 j = B (topAt j) :=
  broadcastTo_apply B _ j (topAt j) (fun a => by
    match a with
    | ⟨0, _⟩ => rfl
    | ⟨1, _⟩ => rfl)

/-- The last layer's combine kernel (no maximum). -/
theorem pay_comb7 (A HW : Vec Ideal S2000x128 .f32) (S : Vec Ideal S2000x1 .f32) (B : Vec Ideal S1x128 .f32) (j : S2000x128.Idx) :
    k7_pay1 (F := Ideal) A HW S B j
      = FloatOps.addf (FloatOps.addf (A j) (FloatOps.mulf (HW j) (S (sideAt j)))) (B (topAt j)) := by
  unfold k7_pay1
  rw [shapeCast_self, shapeCast_self, shapeCast_self, shapeCast_self]
  show FloatOps.addf (F := Ideal) (φ := .f32) (FloatOps.addf (A j) (FloatOps.mulf (HW j) (broadcastTo S2000x128 S broadcasts_S2000x1_S2000x128 j)))
    (broadcastTo S2000x128 B broadcasts_S1x128_S2000x128 j) = _
  rw [spread_side, spread_top]

/-- The first three layers' combine kernels: the same, then the maximum with zero. -/
theorem pay_comb1 (A HW : Vec Ideal S2000x128 .f32) (S : Vec Ideal S2000x1 .f32) (B : Vec Ideal S1x128 .f32) (j : S2000x128.Idx) :
    k1_pay1 (F := Ideal) A HW S B j
      = FloatOps.maximumf (FloatOps.addf (FloatOps.addf (A j) (FloatOps.mulf (HW j) (S (sideAt j)))) (B (topAt j)))
          (FloatOps.ofBits .f32 0x00000000#32) := by
  unfold k1_pay1
  rw [shapeCast_self, shapeCast_self, shapeCast_self, shapeCast_self]
  show FloatOps.maximumf (F := Ideal) (φ := .f32) (FloatOps.addf (F := Ideal) (φ := .f32) (FloatOps.addf (A j) (FloatOps.mulf (HW j) (broadcastTo S2000x128 S broadcasts_S2000x1_S2000x128 j)))
    (broadcastTo S2000x128 B broadcasts_S1x128_S2000x128 j)) _ = _
  rw [spread_side, spread_top]
  rfl
theorem pay_comb3 (A HW : Vec Ideal S2000x128 .f32) (S : Vec Ideal S2000x1 .f32) (B : Vec Ideal S1x128 .f32) (j : S2000x128.Idx) :
    k3_pay1 (F := Ideal) A HW S B j
      = FloatOps.maximumf (FloatOps.addf (FloatOps.addf (A j) (FloatOps.mulf (HW j) (S (sideAt j)))) (B (topAt j)))
          (FloatOps.ofBits .f32 0x00000000#32) := pay_comb1 A HW S B j
theorem pay_comb5 (A HW : Vec Ideal S2000x128 .f32) (S : Vec Ideal S2000x1 .f32) (B : Vec Ideal S1x128 .f32) (j : S2000x128.Idx) :
    k5_pay1 (F := Ideal) A HW S B j
      = FloatOps.maximumf (FloatOps.addf (FloatOps.addf (A j) (FloatOps.mulf (HW j) (S (sideAt j)))) (B (topAt j)))
          (FloatOps.ofBits .f32 0x00000000#32) := pay_comb1 A HW S B j

/-- The head kernel. -/
theorem pay_head8 (X : Vec Ideal S2000x128 .f32) (W : Vec Ideal S128x128 .f32) (B : Vec Ideal S1x128 .f32) (j : S2000x128.Idx) :
    k8_pay1 (F := Ideal) X W B j = FloatOps.addf (∑ k : Fin 128, X (rowAt j k) * W (colAt j k)) (B (topAt j)) := by
  unfold k8_pay1
  rw [shapeCast_self, shapeCast_self]
  show FloatOps.addf (F := Ideal) (φ := .f32) (matmul (F := Ideal) dot_S2000x128_S128x128_S2000x128_1_0_0_1_n_n none _ _ (constant S2000x128 .f32 0x00000000#32) j)
    (broadcastTo S2000x128 B broadcasts_S1x128_S2000x128 j) = _
  rw [spread_top, tile_dot]
  rfl

/-! ## The whole-array functions read at an entry -/

/-- The dense transform at an entry: the sum over the 128 columns of `H`'s row against `W`'s column. -/
theorem mm_apply (H : Mat) (W : Wt) (i : Cert.ReferenceIdeal.S100000x128.Idx) :
    mm H W i = ∑ k : Fin 128, H (Cert.ReferenceIdeal.Read.lidx_main_v13 i k) * W (Cert.ReferenceIdeal.Read.ridx_main_v13 i k) :=
  Cert.ReferenceIdeal.Read.val_main_v13_apply H W i

/-- The entry of a node column beside row `i 0`. -/
abbrev nodeAt (i : Cert.ReferenceIdeal.S100000x128.Idx) : Cert.ReferenceIdeal.S100000x1.Idx := fun a => match a with
  | ⟨0, _⟩ => ⟨(i 0).val, (i 0).isLt⟩
  | ⟨1, _⟩ => ⟨0, Nat.zero_lt_one⟩
/-- The entry of a bias row above column `i 1`. -/
abbrev biasAt (i : Cert.ReferenceIdeal.S100000x128.Idx) : Cert.ReferenceIdeal.S1x128.Idx := fun a => match a with
  | ⟨0, _⟩ => ⟨0, Nat.zero_lt_one⟩
  | ⟨1, _⟩ => ⟨(i 1).val, (i 1).isLt⟩

/-- A node column spread over the feature matrix, read at an entry. -/
theorem spread_node (s : NodeCol) (i : Cert.ReferenceIdeal.S100000x128.Idx) :
    broadcastInDim Cert.ReferenceIdeal.S100000x128 ![0, 1] Cert.ReferenceIdeal.Gen.bcast_S100000x1_S100000x128_0_1 s i = s (nodeAt i) :=
  broadcastInDim_apply _ _ s i (nodeAt i) (fun a => by
    match a with
    | ⟨0, _⟩ => rfl
    | ⟨1, _⟩ => rfl)
/-- A bias row spread over the feature matrix, read at an entry. -/
theorem spread_bias (b : BiasRow) (i : Cert.ReferenceIdeal.S100000x128.Idx) :
    broadcastInDim Cert.ReferenceIdeal.S100000x128 ![0, 1] Cert.ReferenceIdeal.Gen.bcast_S1x128_S100000x128_0_1 b i = b (biasAt i) :=
  broadcastInDim_apply _ _ b i (biasAt i) (fun a => by
    match a with
    | ⟨0, _⟩ => rfl
    | ⟨1, _⟩ => rfl)

/-- One layer's combination at an entry. -/
theorem comb_apply (a hw : Mat) (s : NodeCol) (b : BiasRow) (i : Cert.ReferenceIdeal.S100000x128.Idx) :
    comb a hw s b i = FloatOps.addf (FloatOps.addf (a i) (FloatOps.mulf (hw i) (s (nodeAt i)))) (b (biasAt i)) := by
  unfold comb
  show FloatOps.addf (F := Ideal) (φ := .f32) (FloatOps.addf (a i) (FloatOps.mulf (hw i) (broadcastInDim Cert.ReferenceIdeal.S100000x128 ![0, 1] Cert.ReferenceIdeal.Gen.bcast_S100000x1_S100000x128_0_1 s i)))
    (broadcastInDim Cert.ReferenceIdeal.S100000x128 ![0, 1] Cert.ReferenceIdeal.Gen.bcast_S1x128_S100000x128_0_1 b i) = _
  rw [spread_node, spread_bias]

/-- The maximum with zero at an entry. -/
theorem relu_apply (x : Mat) (i : Cert.ReferenceIdeal.S100000x128.Idx) :
    relu x i = FloatOps.maximumf (x i) (FloatOps.ofBits .f32 0x00000000#32) := rfl

/-- The head at an entry. -/
theorem head_apply (h : Mat) (W : Wt) (b : BiasRow) (i : Cert.ReferenceIdeal.S100000x128.Idx) :
    head h W b i = FloatOps.addf (∑ k : Fin 128, h (Cert.ReferenceIdeal.Read.lidx_main_v13 i k) * W (Cert.ReferenceIdeal.Read.ridx_main_v13 i k)) (b (biasAt i)) := by
  unfold head
  show FloatOps.addf (F := Ideal) (φ := .f32) (mm h W i) (broadcastInDim Cert.ReferenceIdeal.S100000x128 ![0, 1] Cert.ReferenceIdeal.Gen.bcast_S1x128_S100000x128_0_1 b i) = _
  rw [spread_bias, mm_apply]

end Cert.Gcn.Tiles

end
-- ==== Proof.Region0.lean ====
/-
  Kernel region 0: a dense transform, 50 grid points, point `t` taking rows `2000·t … 2000·t + 1999` of its input
  matrix and the whole weight matrix and writing the same rows of its output. Each written block is the matching block
  of `Gcn.mm` of the input and the weights as the region finds them, and the 50 blocks tile the output, so the output
  array ends holding `Gcn.mm` of them.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region0

open Cert.KernelIdeal Cert.KernelIdeal.Gen Idealize.ShloMosaic Idealize.ShloMosaic.TcCoe Idealize.SL.Sem
open Idealize.ShloMosaic.Pipeline (Dat)
open Cert.ReferenceIdeal.Read (lidx_main_v13 ridx_main_v13)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the output move down one block of rows per point; the weights
    stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 50 :=
  (by decide +kernel : ∀ t : Fin grid0.N, _)

/-- Every block of rows is some point's. -/
theorem index_onto : ∀ q : Fin 50, ∃ t : Fin cfg0.N, win0_2.index t = ![q.val, 0] :=
  (by decide +kernel : ∀ q : Fin 50, ∃ t : Fin grid0.N, win0_2.index t = ![q.val, 0])

/-- What point `t` writes back is block `t` of the dense transform of the arrays as the region finds them. -/
theorem flushed_eq (c : Dev nD) (t : Fin cfg0.N) :
    (dat0 V c).flushed 2 t = ((cfg0.win 2).blk t).view.read (Elt Ideal) (Gcn.mm (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5, e6⟩ := index_maps t
  funext j
  show k0_pay1 (iblk0 V c 0 t) (iblk0 V c 1 t) j = Gcn.mm (V c main_arg0) (V c main_arg3) (((cfg0.win 2).blk t).view.emb j)
  refine (Tiles.pay_mm0 (iblk0 V c 0 t) (iblk0 V c 1 t) j).trans ?_
  refine Eq.trans ?_ (Tiles.mm_apply (V c main_arg0) (V c main_arg3) (((cfg0.win 2).blk t).view.emb j)).symm
  refine Finset.sum_congr rfl fun k _ => ?_
  have h0 : ((cfg0.win 0).blk t).view.emb (Tiles.rowAt j k) = lidx_main_v13 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (Tiles.colAt j k) = ridx_main_v13 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show FloatOps.mulf (F := Ideal) (φ := .f32) (V c main_arg0 (((cfg0.win 0).blk t).view.emb (Tiles.rowAt j k))) (V c main_arg3 (((cfg0.win 1).blk t).view.emb (Tiles.colAt j k))) = _
  rw [h0, h1]
  rfl

/-- An index of the output lies in point `t`'s block iff each coordinate lies in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- The 50 blocks cover the output: row `r` lies in the block of point `r / 2000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the dense transform of the input and the weights as the region found them. -/
theorem final (c : Dev nD) : (dat0 V c).arrAt 2 cfg0.N = Gcn.mm (V c main_arg0) (V c main_arg3) :=
  (dat0 V c).arrAt_eq_of_cover 2 _ (fun t _ => flushed_eq V c t) cover

end Cert.Gcn.Region0

end
-- ==== Proof.Region1.lean ====
/-
  Kernel region 1: one layer's combination, 50 grid points, point `t` taking rows `2000·t … 2000·t + 1999` of the
  aggregated matrix, of the transformed matrix and of the self-loop column, and the whole bias row, and writing the same
  rows of its output: `a + hw · s + b`, then the maximum with zero, entry by entry. Each written block is the matching
  block of that whole-array function of the arrays as the region finds them, and the 50 blocks tile the output.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output move down one block of rows per
    point; the bias row stays. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 50 :=
  (by decide +kernel : ∀ t : Fin grid1.N, _)

/-- Every block of rows is some point's. -/
theorem index_onto : ∀ q : Fin 50, ∃ t : Fin cfg1.N, win1_4.index t = ![q.val, 0] :=
  (by decide +kernel : ∀ q : Fin 50, ∃ t : Fin grid1.N, win1_4.index t = ![q.val, 0])

/-- What point `t` writes back is block `t` of the layer's combination of the arrays as the region finds them. -/
theorem flushed_eq (c : Dev nD) (t : Fin cfg1.N) :
    (dat1 V c).flushed 4 t = ((cfg1.win 4).blk t).view.read (Elt Ideal) (Gcn.relu (Gcn.comb (V c main_v44) (V c main_v31) (V c main_v30) (V c main_v45))) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets, View.ld_unit_zero (S := S1x128) zero_offsets]
  obtain ⟨e0, e1, e2, e3, e4, e5, e6, e7, e8, e9, e10⟩ := index_maps t
  funext j
  show k1_pay1 (iblk1 V c 0 t) (iblk1 V c 1 t) (iblk1 V c 2 t) (iblk1 V c 3 t) j = (Gcn.relu (Gcn.comb (V c main_v44) (V c main_v31) (V c main_v30) (V c main_v45))) (((cfg1.win 4).blk t).view.emb j)
  refine (Tiles.pay_comb1 (iblk1 V c 0 t) (iblk1 V c 1 t) (iblk1 V c 2 t) (iblk1 V c 3 t) j).trans ?_
  refine Eq.trans ?_ ((Tiles.relu_apply (Gcn.comb (V c main_v44) (V c main_v31) (V c main_v30) (V c main_v45)) (((cfg1.win 4).blk t).view.emb j)).trans
      (congrArg (fun z => FloatOps.maximumf z (FloatOps.ofBits .f32 0x00000000#32)) (Tiles.comb_apply (V c main_v44) (V c main_v31) (V c main_v30) (V c main_v45) (((cfg1.win 4).blk t).view.emb j)))).symm
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (Tiles.sideAt j) = Tiles.nodeAt (((cfg1.win 4).blk t).view.emb j) := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  have h3 : ((cfg1.win 3).blk t).view.emb (Tiles.topAt j) = Tiles.biasAt (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  show FloatOps.maximumf (F := Ideal) (φ := .f32) (FloatOps.addf (FloatOps.addf (V c main_v44 (((cfg1.win 0).blk t).view.emb j)) (FloatOps.mulf (V c main_v31 (((cfg1.win 1).blk t).view.emb j)) (V c main_v30 (((cfg1.win 2).blk t).view.emb (Tiles.sideAt j))))) (V c main_v45 (((cfg1.win 3).blk t).view.emb (Tiles.topAt j)))) (FloatOps.ofBits .f32 0x00000000#32) = _
  rw [h0, h1, h2, h3]

/-- An index of the output lies in point `t`'s block iff each coordinate lies in the block's range on its axis. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

/-- The 50 blocks cover the output: row `r` lies in the block of point `r / 2000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := index_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The output array after the region: the layer's combination of the arrays as the region found them. -/
theorem final (c : Dev nD) : (dat1 V c).arrAt 4 cfg1.N = Gcn.relu (Gcn.comb (V c main_v44) (V c main_v31) (V c main_v30) (V c main_v45)) :=
  (dat1 V c).arrAt_eq_of_cover 4 _ (fun t _ => flushed_eq V c t) cover

end Cert.Gcn.Region1

end
-- ==== Proof.Region2.lean ====
/-
  Kernel region 2: a dense transform, 50 grid points, point `t` taking rows `2000·t … 2000·t + 1999` of its input
  matrix and the whole weight matrix and writing the same rows of its output. Each written block is the matching block
  of `Gcn.mm` of the input and the weights as the region finds them, and the 50 blocks tile the output, so the output
  array ends holding `Gcn.mm` of them.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region2

open Cert.KernelIdeal Cert.KernelIdeal.Gen Idealize.ShloMosaic Idealize.ShloMosaic.TcCoe Idealize.SL.Sem
open Idealize.ShloMosaic.Pipeline (Dat)
open Cert.ReferenceIdeal.Read (lidx_main_v13 ridx_main_v13)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the output move down one block of rows per point; the weights
    stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 50 :=
  (by decide +kernel : ∀ t : Fin grid2.N, _)

/-- Every block of rows is some point's. -/
theorem index_onto : ∀ q : Fin 50, ∃ t : Fin cfg2.N, win2_2.index t = ![q.val, 0] :=
  (by decide +kernel : ∀ q : Fin 50, ∃ t : Fin grid2.N, win2_2.index t = ![q.val, 0])

/-- What point `t` writes back is block `t` of the dense transform of the arrays as the region finds them. -/
theorem flushed_eq (c : Dev nD) (t : Fin cfg2.N) :
    (dat2 V c).flushed 2 t = ((cfg2.win 2).blk t).view.read (Elt Ideal) (Gcn.mm (V c main_v46) (V c main_arg5)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  obtain ⟨e0, e1, e2, e3, e4, e5, e6⟩ := index_maps t
  funext j
  show k2_pay1 (iblk2 V c 0 t) (iblk2 V c 1 t) j = Gcn.mm (V c main_v46) (V c main_arg5) (((cfg2.win 2).blk t).view.emb j)
  refine (Tiles.pay_mm2 (iblk2 V c 0 t) (iblk2 V c 1 t) j).trans ?_
  refine Eq.trans ?_ (Tiles.mm_apply (V c main_v46) (V c main_arg5) (((cfg2.win 2).blk t).view.emb j)).symm
  refine Finset.sum_congr rfl fun k _ => ?_
  have h0 : ((cfg2.win 0).blk t).view.emb (Tiles.rowAt j k) = lidx_main_v13 (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : ((cfg2.win 1).blk t).view.emb (Tiles.colAt j k) = ridx_main_v13 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  show FloatOps.mulf (F := Ideal) (φ := .f32) (V c main_v46 (((cfg2.win 0).blk t).view.emb (Tiles.rowAt j k))) (V c main_arg5 (((cfg2.win 1).blk t).view.emb (Tiles.colAt j k))) = _
  rw [h0, h1]
  rfl

/-- An index of the output lies in point `t`'s block iff each coordinate lies in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v47).slice (win2_2.rect t)).set ↔ _
  rw [View.set_slice_whole, Rect.mem_set_unit]
  exact Iff.rfl

/-- The 50 blocks cover the output: row `r` lies in the block of point `r / 2000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region: the dense transform of the input and the weights as the region found them. -/
theorem final (c : Dev nD) : (dat2 V c).arrAt 2 cfg2.N = Gcn.mm (V c main_v46) (V c main_arg5) :=
  (dat2 V c).arrAt_eq_of_cover 2 _ (fun t _ => flushed_eq V c t) cover

end Cert.Gcn.Region2

end
-- ==== Proof.ChainB.lean ====
/-
  Boundaries 4 to 7 of the kernel program: the first layer (transform, aggregate, combine) and the second layer's transform.
-/
import proofs.«171248_j55972013802295_1_alg».proof.Proof.ChainA
import proofs.«171248_j55972013802295_1_alg».proof.Proof.Region0
import proofs.«171248_j55972013802295_1_alg».proof.Proof.Region1
import proofs.«171248_j55972013802295_1_alg».proof.Proof.Region2

set_option maxRecDepth 16384

noncomputable section

namespace Cert.Gcn.Chain

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg) (c : Dev nD)

/-- Boundary 4, after kernel region 0: its output holds the region's whole-array function of its inputs; every other
    buffer read later is as at boundary 3. -/
structure At4 : Prop where
  v31 : W4 m ρ c (Proc.devRef .tc main_v31) = hw0 m c
  v1 : W4 m ρ c (Proc.devRef .tc main_v1) = rows m c
  v3 : W4 m ρ c (Proc.devRef .tc main_v3) = cols m c
  v28 : W4 m ρ c (Proc.devRef .tc main_v28) = nrm m c
  v30 : W4 m ρ c (Proc.devRef .tc main_v30) = sc m c
  a4 : W4 m ρ c (Proc.devRef .tc main_arg4) = (m ((c : Thread nD τ).loc main_arg4))
  a5 : W4 m ρ c (Proc.devRef .tc main_arg5) = (m ((c : Thread nD τ).loc main_arg5))
  a6 : W4 m ρ c (Proc.devRef .tc main_arg6) = (m ((c : Thread nD τ).loc main_arg6))
  a7 : W4 m ρ c (Proc.devRef .tc main_arg7) = (m ((c : Thread nD τ).loc main_arg7))
  a8 : W4 m ρ c (Proc.devRef .tc main_arg8) = (m ((c : Thread nD τ).loc main_arg8))
  a9 : W4 m ρ c (Proc.devRef .tc main_arg9) = (m ((c : Thread nD τ).loc main_arg9))
  a10 : W4 m ρ c (Proc.devRef .tc main_arg10) = (m ((c : Thread nD τ).loc main_arg10))
  a11 : W4 m ρ c (Proc.devRef .tc main_arg11) = (m ((c : Thread nD τ).loc main_arg11))
  a12 : W4 m ρ c (Proc.devRef .tc main_arg12) = (m ((c : Thread nD τ).loc main_arg12))

set_option maxHeartbeats 8000000 in
theorem at4 (p : At3 m ρ c) : At4 m ρ c where
  v31 := (W4_arr m ρ c 2).trans ((Region0.final (V3 m ρ) c).trans
    (show Gcn.mm (W3 m ρ c (Proc.devRef .tc main_arg0)) (W3 m ρ c (Proc.devRef .tc main_arg3)) = hw0 m c from by rw [p.a0, p.a3]; rfl))
  v1 := (W4_of_ne m ρ c main_v1 (by decide)).trans p.v1
  v3 := (W4_of_ne m ρ c main_v3 (by decide)).trans p.v3
  v28 := (W4_of_ne m ρ c main_v28 (by decide)).trans p.v28
  v30 := (W4_of_ne m ρ c main_v30 (by decide)).trans p.v30
  a4 := (W4_of_ne m ρ c main_arg4 (by decide)).trans p.a4
  a5 := (W4_of_ne m ρ c main_arg5 (by decide)).trans p.a5
  a6 := (W4_of_ne m ρ c main_arg6 (by decide)).trans p.a6
  a7 := (W4_of_ne m ρ c main_arg7 (by decide)).trans p.a7
  a8 := (W4_of_ne m ρ c main_arg8 (by decide)).trans p.a8
  a9 := (W4_of_ne m ρ c main_arg9 (by decide)).trans p.a9
  a10 := (W4_of_ne m ρ c main_arg10 (by decide)).trans p.a10
  a11 := (W4_of_ne m ρ c main_arg11 (by decide)).trans p.a11
  a12 := (W4_of_ne m ρ c main_arg12 (by decide)).trans p.a12

/-- Boundary 5, after a stretch of host operations: what the stretch computes, as the same operations of the values at
    boundary 4; every other buffer read later is as there. -/
structure At5 : Prop where
  v44 : W5 m ρ c (Proc.devRef .tc main_v44) = ag0 m c
  v45 : W5 m ρ c (Proc.devRef .tc main_v45) = br0 m c
  v31 : W5 m ρ c (Proc.devRef .tc main_v31) = hw0 m c
  v30 : W5 m ρ c (Proc.devRef .tc main_v30) = sc m c
  v1 : W5 m ρ c (Proc.devRef .tc main_v1) = rows m c
  v3 : W5 m ρ c (Proc.devRef .tc main_v3) = cols m c
  v28 : W5 m ρ c (Proc.devRef .tc main_v28) = nrm m c
  a5 : W5 m ρ c (Proc.devRef .tc main_arg5) = (m ((c : Thread nD τ).loc main_arg5))
  a6 : W5 m ρ c (Proc.devRef .tc main_arg6) = (m ((c : Thread nD τ).loc main_arg6))
  a7 : W5 m ρ c (Proc.devRef .tc main_arg7) = (m ((c : Thread nD τ).loc main_arg7))
  a8 : W5 m ρ c (Proc.devRef .tc main_arg8) = (m ((c : Thread nD τ).loc main_arg8))
  a9 : W5 m ρ c (Proc.devRef .tc main_arg9) = (m ((c : Thread nD τ).loc main_arg9))
  a10 : W5 m ρ c (Proc.devRef .tc main_arg10) = (m ((c : Thread nD τ).loc main_arg10))
  a11 : W5 m ρ c (Proc.devRef .tc main_arg11) = (m ((c : Thread nD τ).loc main_arg11))
  a12 : W5 m ρ c (Proc.devRef .tc main_arg12) = (m ((c : Thread nD τ).loc main_arg12))

set_option maxHeartbeats 8000000 in
theorem at5 (p : At4 m ρ c) : At5 m ρ c where
  v44 := by
    show StableHlo.after hostOps1 (W4 m ρ c) (Proc.devRef .tc main_v44) = _
    host_fold
    rw [p.v1, p.v3, p.v28, p.v31]
    rfl
  v45 := by
    show StableHlo.after hostOps1 (W4 m ρ c) (Proc.devRef .tc main_v45) = _
    host_fold
    rw [p.a4]
    rfl
  v31 := by
    show StableHlo.after hostOps1 (W4 m ρ c) (Proc.devRef .tc main_v31) = _
    host_fold <;> exact p.v31
  v30 := by
    show StableHlo.after hostOps1 (W4 m ρ c) (Proc.devRef .tc main_v30) = _
    host_fold <;> exact p.v30
  v1 := by
    show StableHlo.after hostOps1 (W4 m ρ c) (Proc.devRef .tc main_v1) = _
    host_fold <;> exact p.v1
  v3 := by
    show StableHlo.after hostOps1 (W4 m ρ c) (Proc.devRef .tc main_v3) = _
    host_fold <;> exact p.v3
  v28 := by
    show StableHlo.after hostOps1 (W4 m ρ c) (Proc.devRef .tc main_v28) = _
    host_fold <;> exact p.v28
  a5 := by
    show StableHlo.after hostOps1 (W4 m ρ c) (Proc.devRef .tc main_arg5) = _
    host_fold <;> exact p.a5
  a6 := by
    show StableHlo.after hostOps1 (W4 m ρ c) (Proc.devRef .tc main_arg6) = _
    host_fold <;> exact p.a6
  a7 := by
    show StableHlo.after hostOps1 (W4 m ρ c) (Proc.devRef .tc main_arg7) = _
    host_fold <;> exact p.a7
  a8 := by
    show StableHlo.after hostOps1 (W4 m ρ c) (Proc.devRef .tc main_arg8) = _
    host_fold <;> exact p.a8
  a9 := by
    show StableHlo.after hostOps1 (W4 m ρ c) (Proc.devRef .tc main_arg9) = _
    host_fold <;> exact p.a9
  a10 := by
    show StableHlo.after hostOps1 (W4 m ρ c) (Proc.devRef .tc main_arg10) = _
    host_fold <;> exact p.a10
  a11 := by
    show StableHlo.after hostOps1 (W4 m ρ c) (Proc.devRef .tc main_arg11) = _
    host_fold <;> exact p.a11
  a12 := by
    show StableHlo.after hostOps1 (W4 m ρ c) (Proc.devRef .tc main_arg12) = _
    host_fold <;> exact p.a12

/-- Boundary 6, after kernel region 1: its output holds the region's whole-array function of its inputs; every other
    buffer read later is as at boundary 5. -/
structure At6 : Prop where
  v46 : W6 m ρ c (Proc.devRef .tc main_v46) = h1 m c
  v1 : W6 m ρ c (Proc.devRef .tc main_v1) = rows m c
  v3 : W6 m ρ c (Proc.devRef .tc main_v3) = cols m c
  v28 : W6 m ρ c (Proc.devRef .tc main_v28) = nrm m c
  a5 : W6 m ρ c (Proc.devRef .tc main_arg5) = (m ((c : Thread nD τ).loc main_arg5))
  a6 : W6 m ρ c (Proc.devRef .tc main_arg6) = (m ((c : Thread nD τ).loc main_arg6))
  a7 : W6 m ρ c (Proc.devRef .tc main_arg7) = (m ((c : Thread nD τ).loc main_arg7))
  a8 : W6 m ρ c (Proc.devRef .tc main_arg8) = (m ((c : Thread nD τ).loc main_arg8))
  a9 : W6 m ρ c (Proc.devRef .tc main_arg9) = (m ((c : Thread nD τ).loc main_arg9))
  a10 : W6 m ρ c (Proc.devRef .tc main_arg10) = (m ((c : Thread nD τ).loc main_arg10))
  a11 : W6 m ρ c (Proc.devRef .tc main_arg11) = (m ((c : Thread nD τ).loc main_arg11))
  a12 : W6 m ρ c (Proc.devRef .tc main_arg12) = (m ((c : Thread nD τ).loc main_arg12))
  v30 : W6 m ρ c (Proc.devRef .tc main_v30) = sc m c

set_option maxHeartbeats 8000000 in
theorem at6 (p : At5 m ρ c) : At6 m ρ c where
  v46 := (W6_arr m ρ c 4).trans ((Region1.final (V5 m ρ) c).trans
    (show Gcn.relu (Gcn.comb (W5 m ρ c (Proc.devRef .tc main_v44)) (W5 m ρ c (Proc.devRef .tc main_v31)) (W5 m ρ c (Proc.devRef .tc main_v30)) (W5 m ρ c (Proc.devRef .tc main_v45))) = h1 m c from by rw [p.v44, p.v31, p.v30, p.v45]; rfl))
  v1 := (W6_of_ne m ρ c main_v1 (by decide)).trans p.v1
  v3 := (W6_of_ne m ρ c main_v3 (by decide)).trans p.v3
  v28 := (W6_of_ne m ρ c main_v28 (by decide)).trans p.v28
  a5 := (W6_of_ne m ρ c main_arg5 (by decide)).trans p.a5
  a6 := (W6_of_ne m ρ c main_arg6 (by decide)).trans p.a6
  a7 := (W6_of_ne m ρ c main_arg7 (by decide)).trans p.a7
  a8 := (W6_of_ne m ρ c main_arg8 (by decide)).trans p.a8
  a9 := (W6_of_ne m ρ c main_arg9 (by decide)).trans p.a9
  a10 := (W6_of_ne m ρ c main_arg10 (by decide)).trans p.a10
  a11 := (W6_of_ne m ρ c main_arg11 (by decide)).trans p.a11
  a12 := (W6_of_ne m ρ c main_arg12 (by decide)).trans p.a12
  v30 := (W6_arr m ρ c 2).trans (((dat1 (V5 m ρ) c).arrAt_in 2 rfl _).trans ((A_eq1 (V5 m ρ) c 2).trans p.v30))

/-- Boundary 7, after kernel region 2: its output holds the region's whole-array function of its inputs; every other
    buffer read later is as at boundary 6. -/
structure At7 : Prop where
  v47 : W7 m ρ c (Proc.devRef .tc main_v47) = hw1 m c
  v1 : W7 m ρ c (Proc.devRef .tc main_v1) = rows m c
  v3 : W7 m ρ c (Proc.devRef .tc main_v3) = cols m c
  v28 : W7 m ρ c (Proc.devRef .tc main_v28) = nrm m c
  v30 : W7 m ρ c (Proc.devRef .tc main_v30) = sc m c
  a6 : W7 m ρ c (Proc.devRef .tc main_arg6) = (m ((c : Thread nD τ).loc main_arg6))
  a7 : W7 m ρ c (Proc.devRef .tc main_arg7) = (m ((c : Thread nD τ).loc main_arg7))
  a8 : W7 m ρ c (Proc.devRef .tc main_arg8) = (m ((c : Thread nD τ).loc main_arg8))
  a9 : W7 m ρ c (Proc.devRef .tc main_arg9) = (m ((c : Thread nD τ).loc main_arg9))
  a10 : W7 m ρ c (Proc.devRef .tc main_arg10) = (m ((c : Thread nD τ).loc main_arg10))
  a11 : W7 m ρ c (Proc.devRef .tc main_arg11) = (m ((c : Thread nD τ).loc main_arg11))
  a12 : W7 m ρ c (Proc.devRef .tc main_arg12) = (m ((c : Thread nD τ).loc main_arg12))

set_option maxHeartbeats 8000000 in
theorem at7 (p : At6 m ρ c) : At7 m ρ c where
  v47 := (W7_arr m ρ c 2).trans ((Region2.final (V6 m ρ) c).trans
    (show Gcn.mm (W6 m ρ c (Proc.devRef .tc main_v46)) (W6 m ρ c (Proc.devRef .tc main_arg5)) = hw1 m c from by rw [p.v46, p.a5]; rfl))
  v1 := (W7_of_ne m ρ c main_v1 (by decide)).trans p.v1
  v3 := (W7_of_ne m ρ c main_v3 (by decide)).trans p.v3
  v28 := (W7_of_ne m ρ c main_v28 (by decide)).trans p.v28
  v30 := (W7_of_ne m ρ c main_v30 (by decide)).trans p.v30
  a6 := (W7_of_ne m ρ c main_arg6 (by decide)).trans p.a6
  a7 := (W7_of_ne m ρ c main_arg7 (by decide)).trans p.a7
  a8 := (W7_of_ne m ρ c main_arg8 (by decide)).trans p.a8
  a9 := (W7_of_ne m ρ c main_arg9 (by decide)).trans p.a9
  a10 := (W7_of_ne m ρ c main_arg10 (by decide)).trans p.a10
  a11 := (W7_of_ne m ρ c main_arg11 (by decide)).trans p.a11
  a12 := (W7_of_ne m ρ c main_arg12 (by decide)).trans p.a12

end Cert.Gcn.Chain

end
-- ==== Proof.Region3.lean ====
/-
  Kernel region 3: one layer's combination, 50 grid points, point `t` taking rows `2000·t … 2000·t + 1999` of the
  aggregated matrix, of the transformed matrix and of the self-loop column, and the whole bias row, and writing the same
  rows of its output: `a + hw · s + b`, then the maximum with zero, entry by entry. Each written block is the matching
  block of that whole-array function of the arrays as the region finds them, and the 50 blocks tile the output.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output move down one block of rows per
    point; the bias row stays. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 50 :=
  (by decide +kernel : ∀ t : Fin grid3.N, _)

/-- Every block of rows is some point's. -/
theorem index_onto : ∀ q : Fin 50, ∃ t : Fin cfg3.N, win3_4.index t = ![q.val, 0] :=
  (by decide +kernel : ∀ q : Fin 50, ∃ t : Fin grid3.N, win3_4.index t = ![q.val, 0])

/-- What point `t` writes back is block `t` of the layer's combination of the arrays as the region finds them. -/
theorem flushed_eq (c : Dev nD) (t : Fin cfg3.N) :
    (dat3 V c).flushed 4 t = ((cfg3.win 4).blk t).view.read (Elt Ideal) (Gcn.relu (Gcn.comb (V c main_v60) (V c main_v47) (V c main_v30) (V c main_v61))) := by
  show (cfg3.win 4).cut (grid3.coords t) ((dat3 V c).after 4 t) = _
  rw [after3_4]
  unfold out3_4
  rw [View.canon_unit_zero zero_offsets]
  simp only [View.ld_unit_zero (S := S2000x128) zero_offsets, View.ld_unit_zero (S := S2000x1) zero_offsets, View.ld_unit_zero (S := S1x128) zero_offsets]
  obtain ⟨e0, e1, e2, e3, e4, e5, e6, e7, e8, e9, e10⟩ := index_maps t
  funext j
  show k3_pay1 (iblk3 V c 0 t) (iblk3 V c 1 t) (iblk3 V c 2 t) (iblk3 V c 3 t) j = (Gcn.relu (Gcn.comb (V c main_v60) (V c main_v47) (V c main_v30) (V c main_v61))) (((cfg3.win 4).blk t).view.emb j)
  refine (Tiles.pay_comb3 (iblk3 V c 0 t) (iblk3 V c 1 t) (iblk3 V c 2 t) (iblk3 V c 3 t) j).trans ?_
  refine Eq.trans ?_ ((Tiles.relu_apply (Gcn.comb (V c main_v60) (V c main_v47) (V c main_v30) (V c main_v61)) (((cfg3.win 4).blk t).view.emb j)).trans
      (congrArg (fun z => FloatOps.maximumf z (FloatOps.ofBits .f32 0x00000000#32)) (Tiles.comb_apply (V c main_v60) (V c main_v47) (V c main_v30) (V c main_v61) (((cfg3.win 4).blk t).view.emb j)))).symm
  have h0 : ((cfg3.win 0).blk t).view.emb j = ((cfg3.win 4).blk t).view.emb j := by
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (Tiles.sideAt j) = Tiles.nodeAt (((cfg3.win 4).blk t).view.emb j) := by
    funext a; apply Fin.ext
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  have h3 : ((cfg3.win 3).blk t).view.emb (Tiles.topAt j) = Tiles.biasAt (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  show FloatOps.maximumf (F := Ideal) (φ := .f32) (FloatOps.addf (FloatOps.addf (V c main_v60 (((cfg3.win 0).blk t).view.emb j)) (FloatOps.mulf (V c main_v47 (((cfg3.win 1).blk t).view.emb j)) (V c main_v30 (((cfg3.win 2).blk t).view.emb (Tiles.sideAt j))))) (V c main_v61 (((cfg3.win 3).blk t).view.emb (Tiles.topAt j)))) (FloatOps.ofBits .f32 0x00000000#32) = _
  rw [h0, h1, h2, h3]

/-- An index of the output lies in point `t`'s block iff each coordinate lies in the block's range on its axis. -/
theorem mem_blk (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v62).slice (win3_4.rect t)).set ↔ _
  rw [View.set_slice_whole, Rect.mem_set_unit]
  exact Iff.rfl

/-- The 50 blocks cover the output: row `r` lies in the block of point `r / 2000`. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := index_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The output array after the region: the layer's combination of the arrays as the region found them. -/
theorem final (c : Dev nD) : (dat3 V c).arrAt 4 cfg3.N = Gcn.relu (Gcn.comb (V c main_v60) (V c main_v47) (V c main_v30) (V c main_v61)) :=
  (dat3 V c).arrAt_eq_of_cover 4 _ (fun t _ => flushed_eq V c t) cover

end Cert.Gcn.Region3

end
-- ==== Proof.Region4.lean ====
/-
  Kernel region 4: a dense transform, 50 grid points, point `t` taking rows `2000·t … 2000·t + 1999` of its input
  matrix and the whole weight matrix and writing the same rows of its output. Each written block is the matching block
  of `Gcn.mm` of the input and the weights as the region finds them, and the 50 blocks tile the output, so the output
  array ends holding `Gcn.mm` of them.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region4

open Cert.KernelIdeal Cert.KernelIdeal.Gen Idealize.ShloMosaic Idealize.ShloMosaic.TcCoe Idealize.SL.Sem
open Idealize.ShloMosaic.Pipeline (Dat)
open Cert.ReferenceIdeal.Read (lidx_main_v13 ridx_main_v13)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the output move down one block of rows per point; the weights
    stay. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 50 :=
  (by decide +kernel : ∀ t : Fin grid4.N, _)

/-- Every block of rows is some point's. -/
theorem index_onto : ∀ q : Fin 50, ∃ t : Fin cfg4.N, win4_2.index t = ![q.val, 0] :=
  (by decide +kernel : ∀ q : Fin 50, ∃ t : Fin grid4.N, win4_2.index t = ![q.val, 0])

/-- What point `t` writes back is block `t` of the dense transform of the arrays as the region finds them. -/
theorem flushed_eq (c : Dev nD) (t : Fin cfg4.N) :
    (dat4 V c).flushed 2 t = ((cfg4.win 2).blk t).view.read (Elt Ideal) (Gcn.mm (V c main_v62) (V c main_arg7)) := by
  show (cfg4.win 2).cut (grid4.coords t) ((dat4 V c).after 2 t) = _
  rw [after4_2]
  unfold out4_2
  rw [View.canon_unit_zero zero_offsets]
  simp only [View.ld_unit_zero (S := S2000x128) zero_offsets, View.ld_unit_zero (S := S128x128) zero_offsets]
  obtain ⟨e0, e1, e2, e3, e4, e5, e6⟩ := index_maps t
  funext j
  show k4_pay1 (iblk4 V c 0 t) (iblk4 V c 1 t) j = Gcn.mm (V c main_v62) (V c main_arg7) (((cfg4.win 2).blk t).view.emb j)
  refine (Tiles.pay_mm4 (iblk4 V c 0 t) (iblk4 V c 1 t) j).trans ?_
  refine Eq.trans ?_ (Tiles.mm_apply (V c main_v62) (V c main_arg7) (((cfg4.win 2).blk t).view.emb j)).symm
  refine Finset.sum_congr rfl fun k _ => ?_
  have h0 : ((cfg4.win 0).blk t).view.emb (Tiles.rowAt j k) = lidx_main_v13 (((cfg4.win 2).blk t).view.emb j) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  have h1 : ((cfg4.win 1).blk t).view.emb (Tiles.colAt j k) = ridx_main_v13 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  show FloatOps.mulf (F := Ideal) (φ := .f32) (V c main_v62 (((cfg4.win 0).blk t).view.emb (Tiles.rowAt j k))) (V c main_arg7 (((cfg4.win 1).blk t).view.emb (Tiles.colAt j k))) = _
  rw [h0, h1]
  rfl

/-- An index of the output lies in point `t`'s block iff each coordinate lies in the block's range on its axis. -/
theorem mem_blk (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v63).slice (win4_2.rect t)).set ↔ _
  rw [View.set_slice_whole, Rect.mem_set_unit]
  exact Iff.rfl

/-- The 50 blocks cover the output: row `r` lies in the block of point `r / 2000`. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := index_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The output array after the region: the dense transform of the input and the weights as the region found them. -/
theorem final (c : Dev nD) : (dat4 V c).arrAt 2 cfg4.N = Gcn.mm (V c main_v62) (V c main_arg7) :=
  (dat4 V c).arrAt_eq_of_cover 2 _ (fun t _ => flushed_eq V c t) cover

end Cert.Gcn.Region4

end
-- ==== Proof.ChainC.lean ====
/-
  Boundaries 8 to 10 of the kernel program: the second layer's aggregate and combination, the third layer's transform.
-/
import proofs.«171248_j55972013802295_1_alg».proof.Proof.ChainB
import proofs.«171248_j55972013802295_1_alg».proof.Proof.Region3
import proofs.«171248_j55972013802295_1_alg».proof.Proof.Region4

set_option maxRecDepth 16384

noncomputable section

namespace Cert.Gcn.Chain

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg) (c : Dev nD)

/-- Boundary 8, after a stretch of host operations: what the stretch computes, as the same operations of the values at
    boundary 7; every other buffer read later is as there. -/
structure At8 : Prop where
  v60 : W8 m ρ c (Proc.devRef .tc main_v60) = ag1 m c
  v61 : W8 m ρ c (Proc.devRef .tc main_v61) = br1 m c
  v47 : W8 m ρ c (Proc.devRef .tc main_v47) = hw1 m c
  v30 : W8 m ρ c (Proc.devRef .tc main_v30) = sc m c
  v1 : W8 m ρ c (Proc.devRef .tc main_v1) = rows m c
  v3 : W8 m ρ c (Proc.devRef .tc main_v3) = cols m c
  v28 : W8 m ρ c (Proc.devRef .tc main_v28) = nrm m c
  a7 : W8 m ρ c (Proc.devRef .tc main_arg7) = (m ((c : Thread nD τ).loc main_arg7))
  a8 : W8 m ρ c (Proc.devRef .tc main_arg8) = (m ((c : Thread nD τ).loc main_arg8))
  a9 : W8 m ρ c (Proc.devRef .tc main_arg9) = (m ((c : Thread nD τ).loc main_arg9))
  a10 : W8 m ρ c (Proc.devRef .tc main_arg10) = (m ((c : Thread nD τ).loc main_arg10))
  a11 : W8 m ρ c (Proc.devRef .tc main_arg11) = (m ((c : Thread nD τ).loc main_arg11))
  a12 : W8 m ρ c (Proc.devRef .tc main_arg12) = (m ((c : Thread nD τ).loc main_arg12))

set_option maxHeartbeats 8000000 in
theorem at8 (p : At7 m ρ c) : At8 m ρ c where
  v60 := by
    show StableHlo.after hostOps3 (W7 m ρ c) (Proc.devRef .tc main_v60) = _
    host_fold
    rw [p.v1, p.v3, p.v28, p.v47]
    rfl
  v61 := by
    show StableHlo.after hostOps3 (W7 m ρ c) (Proc.devRef .tc main_v61) = _
    host_fold
    rw [p.a6]
    rfl
  v47 := by
    show StableHlo.after hostOps3 (W7 m ρ c) (Proc.devRef .tc main_v47) = _
    host_fold <;> exact p.v47
  v30 := by
    show StableHlo.after hostOps3 (W7 m ρ c) (Proc.devRef .tc main_v30) = _
    host_fold <;> exact p.v30
  v1 := by
    show StableHlo.after hostOps3 (W7 m ρ c) (Proc.devRef .tc main_v1) = _
    host_fold <;> exact p.v1
  v3 := by
    show StableHlo.after hostOps3 (W7 m ρ c) (Proc.devRef .tc main_v3) = _
    host_fold <;> exact p.v3
  v28 := by
    show StableHlo.after hostOps3 (W7 m ρ c) (Proc.devRef .tc main_v28) = _
    host_fold <;> exact p.v28
  a7 := by
    show StableHlo.after hostOps3 (W7 m ρ c) (Proc.devRef .tc main_arg7) = _
    host_fold <;> exact p.a7
  a8 := by
    show StableHlo.after hostOps3 (W7 m ρ c) (Proc.devRef .tc main_arg8) = _
    host_fold <;> exact p.a8
  a9 := by
    show StableHlo.after hostOps3 (W7 m ρ c) (Proc.devRef .tc main_arg9) = _
    host_fold <;> exact p.a9
  a10 := by
    show StableHlo.after hostOps3 (W7 m ρ c) (Proc.devRef .tc main_arg10) = _
    host_fold <;> exact p.a10
  a11 := by
    show StableHlo.after hostOps3 (W7 m ρ c) (Proc.devRef .tc main_arg11) = _
    host_fold <;> exact p.a11
  a12 := by
    show StableHlo.after hostOps3 (W7 m ρ c) (Proc.devRef .tc main_arg12) = _
    host_fold <;> exact p.a12

/-- Boundary 9, after kernel region 3: its output holds the region's whole-array function of its inputs; every other
    buffer read later is as at boundary 8. -/
structure At9 : Prop where
  v62 : W9 m ρ c (Proc.devRef .tc main_v62) = h2 m c
  v1 : W9 m ρ c (Proc.devRef .tc main_v1) = rows m c
  v3 : W9 m ρ c (Proc.devRef .tc main_v3) = cols m c
  v28 : W9 m ρ c (Proc.devRef .tc main_v28) = nrm m c
  a7 : W9 m ρ c (Proc.devRef .tc main_arg7) = (m ((c : Thread nD τ).loc main_arg7))
  a8 : W9 m ρ c (Proc.devRef .tc main_arg8) = (m ((c : Thread nD τ).loc main_arg8))
  a9 : W9 m ρ c (Proc.devRef .tc main_arg9) = (m ((c : Thread nD τ).loc main_arg9))
  a10 : W9 m ρ c (Proc.devRef .tc main_arg10) = (m ((c : Thread nD τ).loc main_arg10))
  a11 : W9 m ρ c (Proc.devRef .tc main_arg11) = (m ((c : Thread nD τ).loc main_arg11))
  a12 : W9 m ρ c (Proc.devRef .tc main_arg12) = (m ((c : Thread nD τ).loc main_arg12))
  v30 : W9 m ρ c (Proc.devRef .tc main_v30) = sc m c

set_option maxHeartbeats 8000000 in
theorem at9 (p : At8 m ρ c) : At9 m ρ c where
  v62 := (W9_arr m ρ c 4).trans ((Region3.final (V8 m ρ) c).trans
    (show Gcn.relu (Gcn.comb (W8 m ρ c (Proc.devRef .tc main_v60)) (W8 m ρ c (Proc.devRef .tc main_v47)) (W8 m ρ c (Proc.devRef .tc main_v30)) (W8 m ρ c (Proc.devRef .tc main_v61))) = h2 m c from by rw [p.v60, p.v47, p.v30, p.v61]; rfl))
  v1 := (W9_of_ne m ρ c main_v1 (by decide)).trans p.v1
  v3 := (W9_of_ne m ρ c main_v3 (by decide)).trans p.v3
  v28 := (W9_of_ne m ρ c main_v28 (by decide)).trans p.v28
  a7 := (W9_of_ne m ρ c main_arg7 (by decide)).trans p.a7
  a8 := (W9_of_ne m ρ c main_arg8 (by decide)).trans p.a8
  a9 := (W9_of_ne m ρ c main_arg9 (by decide)).trans p.a9
  a10 := (W9_of_ne m ρ c main_arg10 (by decide)).trans p.a10
  a11 := (W9_of_ne m ρ c main_arg11 (by decide)).trans p.a11
  a12 := (W9_of_ne m ρ c main_arg12 (by decide)).trans p.a12
  v30 := (W9_arr m ρ c 2).trans (((dat3 (V8 m ρ) c).arrAt_in 2 rfl _).trans ((A_eq3 (V8 m ρ) c 2).trans p.v30))

/-- Boundary 10, after kernel region 4: its output holds the region's whole-array function of its inputs; every other
    buffer read later is as at boundary 9. -/
structure At10 : Prop where
  v63 : W10 m ρ c (Proc.devRef .tc main_v63) = hw2 m c
  v1 : W10 m ρ c (Proc.devRef .tc main_v1) = rows m c
  v3 : W10 m ρ c (Proc.devRef .tc main_v3) = cols m c
  v28 : W10 m ρ c (Proc.devRef .tc main_v28) = nrm m c
  v30 : W10 m ρ c (Proc.devRef .tc main_v30) = sc m c
  a8 : W10 m ρ c (Proc.devRef .tc main_arg8) = (m ((c : Thread nD τ).loc main_arg8))
  a9 : W10 m ρ c (Proc.devRef .tc main_arg9) = (m ((c : Thread nD τ).loc main_arg9))
  a10 : W10 m ρ c (Proc.devRef .tc main_arg10) = (m ((c : Thread nD τ).loc main_arg10))
  a11 : W10 m ρ c (Proc.devRef .tc main_arg11) = (m ((c : Thread nD τ).loc main_arg11))
  a12 : W10 m ρ c (Proc.devRef .tc main_arg12) = (m ((c : Thread nD τ).loc main_arg12))

set_option maxHeartbeats 8000000 in
theorem at10 (p : At9 m ρ c) : At10 m ρ c where
  v63 := (W10_arr m ρ c 2).trans ((Region4.final (V9 m ρ) c).trans
    (show Gcn.mm (W9 m ρ c (Proc.devRef .tc main_v62)) (W9 m ρ c (Proc.devRef .tc main_arg7)) = hw2 m c from by rw [p.v62, p.a7]; rfl))
  v1 := (W10_of_ne m ρ c main_v1 (by decide)).trans p.v1
  v3 := (W10_of_ne m ρ c main_v3 (by decide)).trans p.v3
  v28 := (W10_of_ne m ρ c main_v28 (by decide)).trans p.v28
  v30 := (W10_of_ne m ρ c main_v30 (by decide)).trans p.v30
  a8 := (W10_of_ne m ρ c main_arg8 (by decide)).trans p.a8
  a9 := (W10_of_ne m ρ c main_arg9 (by decide)).trans p.a9
  a10 := (W10_of_ne m ρ c main_arg10 (by decide)).trans p.a10
  a11 := (W10_of_ne m ρ c main_arg11 (by decide)).trans p.a11
  a12 := (W10_of_ne m ρ c main_arg12 (by decide)).trans p.a12

end Cert.Gcn.Chain

end
-- ==== Proof.Region5.lean ====
/-
  Kernel region 5: one layer's combination, 50 grid points, point `t` taking rows `2000·t … 2000·t + 1999` of the
  aggregated matrix, of the transformed matrix and of the self-loop column, and the whole bias row, and writing the same
  rows of its output: `a + hw · s + b`, then the maximum with zero, entry by entry. Each written block is the matching
  block of that whole-array function of the arrays as the region finds them, and the 50 blocks tile the output.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region5

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output move down one block of rows per
    point; the bias row stays. -/
theorem index_maps : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 50 :=
  (by decide +kernel : ∀ t : Fin grid5.N, _)

/-- Every block of rows is some point's. -/
theorem index_onto : ∀ q : Fin 50, ∃ t : Fin cfg5.N, win5_4.index t = ![q.val, 0] :=
  (by decide +kernel : ∀ q : Fin 50, ∃ t : Fin grid5.N, win5_4.index t = ![q.val, 0])

/-- What point `t` writes back is block `t` of the layer's combination of the arrays as the region finds them. -/
theorem flushed_eq (c : Dev nD) (t : Fin cfg5.N) :
    (dat5 V c).flushed 4 t = ((cfg5.win 4).blk t).view.read (Elt Ideal) (Gcn.relu (Gcn.comb (V c main_v76) (V c main_v63) (V c main_v30) (V c main_v77))) := by
  show (cfg5.win 4).cut (grid5.coords t) ((dat5 V c).after 4 t) = _
  rw [after5_4]
  unfold out5_4
  rw [View.canon_unit_zero zero_offsets]
  simp only [View.ld_unit_zero (S := S2000x128) zero_offsets, View.ld_unit_zero (S := S2000x1) zero_offsets, View.ld_unit_zero (S := S1x128) zero_offsets]
  obtain ⟨e0, e1, e2, e3, e4, e5, e6, e7, e8, e9, e10⟩ := index_maps t
  funext j
  show k5_pay1 (iblk5 V c 0 t) (iblk5 V c 1 t) (iblk5 V c 2 t) (iblk5 V c 3 t) j = (Gcn.relu (Gcn.comb (V c main_v76) (V c main_v63) (V c main_v30) (V c main_v77))) (((cfg5.win 4).blk t).view.emb j)
  refine (Tiles.pay_comb5 (iblk5 V c 0 t) (iblk5 V c 1 t) (iblk5 V c 2 t) (iblk5 V c 3 t) j).trans ?_
  refine Eq.trans ?_ ((Tiles.relu_apply (Gcn.comb (V c main_v76) (V c main_v63) (V c main_v30) (V c main_v77)) (((cfg5.win 4).blk t).view.emb j)).trans
      (congrArg (fun z => FloatOps.maximumf z (FloatOps.ofBits .f32 0x00000000#32)) (Tiles.comb_apply (V c main_v76) (V c main_v63) (V c main_v30) (V c main_v77) (((cfg5.win 4).blk t).view.emb j)))).symm
  have h0 : ((cfg5.win 0).blk t).view.emb j = ((cfg5.win 4).blk t).view.emb j := by
    funext a; apply Fin.ext
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 128 + 1 * (j 1).val = win5_4.index t (1 : Fin 2) * 128 + 1 * (j 1).val; omega
  have h1 : ((cfg5.win 1).blk t).view.emb j = ((cfg5.win 4).blk t).view.emb j := by
    funext a; apply Fin.ext
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 128 + 1 * (j 1).val = win5_4.index t (1 : Fin 2) * 128 + 1 * (j 1).val; omega
  have h2 : ((cfg5.win 2).blk t).view.emb (Tiles.sideAt j) = Tiles.nodeAt (((cfg5.win 4).blk t).view.emb j) := by
    funext a; apply Fin.ext
    match a with
    | ⟨0, _⟩ => show win5_2.index t (0 : Fin 2) * 2000 + 1 * (j 0).val = win5_4.index t (0 : Fin 2) * 2000 + 1 * (j 0).val; omega
    | ⟨1, _⟩ => show win5_2.index t (1 : Fin 2) * 1 + 1 * 0 = 0; omega
  have h3 : ((cfg5.win 3).blk t).view.emb (Tiles.topAt j) = Tiles.biasAt (((cfg5.win 4).blk t).view.emb j) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega
  show FloatOps.maximumf (F := Ideal) (φ := .f32) (FloatOps.addf (FloatOps.addf (V c main_v76 (((cfg5.win 0).blk t).view.emb j)) (FloatOps.mulf (V c main_v63 (((cfg5.win 1).blk t).view.emb j)) (V c main_v30 (((cfg5.win 2).blk t).view.emb (Tiles.sideAt j))))) (V c main_v77 (((cfg5.win 3).blk t).view.emb (Tiles.topAt j)))) (FloatOps.ofBits .f32 0x00000000#32) = _
  rw [h0, h1, h2, h3]

/-- An index of the output lies in point `t`'s block iff each coordinate lies in the block's range on its axis. -/
theorem mem_blk (t : Fin cfg5.N) (i : S100000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v78).slice (win5_4.rect t)).set ↔ _
  rw [View.set_slice_whole, Rect.mem_set_unit]
  exact Iff.rfl

/-- The 50 blocks cover the output: row `r` lies in the block of point `r / 2000`. -/
theorem cover (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := index_onto ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

/-- The output array after the region: the layer's combination of the arrays as the region found them. -/
theorem final (c : Dev nD) : (dat5 V c).arrAt 4 cfg5.N = Gcn.relu (Gcn.comb (V c main_v76) (V c main_v63) (V c main_v30) (V c main_v77)) :=
  (dat5 V c).arrAt_eq_of_cover 4 _ (fun t _ => flushed_eq V c t) cover

end Cert.Gcn.Region5

end
-- ==== Proof.Region6.lean ====
/-
  Kernel region 6: a dense transform, 50 grid points, point `t` taking rows `2000·t … 2000·t + 1999` of its input
  matrix and the whole weight matrix and writing the same rows of its output. Each written block is the matching block
  of `Gcn.mm` of the input and the weights as the region finds them, and the 50 blocks tile the output, so the output
  array ends holding `Gcn.mm` of them.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region6

open Cert.KernelIdeal Cert.KernelIdeal.Gen Idealize.ShloMosaic Idealize.ShloMosaic.TcCoe Idealize.SL.Sem
open Idealize.ShloMosaic.Pipeline (Dat)
open Cert.ReferenceIdeal.Read (lidx_main_v13 ridx_main_v13)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the output move down one block of rows per point; the weights
    stay. -/
theorem index_maps : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 50 :=
  (by decide +kernel : ∀ t : Fin grid6.N, _)

/-- Every block of rows is some point's. -/
theorem index_onto : ∀ q : Fin 50, ∃ t : Fin cfg6.N, win6_2.index t = ![q.val, 0] :=
  (by decide +kernel : ∀ q : Fin 50, ∃ t : Fin grid6.N, win6_2.index t = ![q.val, 0])

/-- What point `t` writes back is block `t` of the dense transform of the arrays as the region finds them. -/
theorem flushed_eq (c : Dev nD) (t : Fin cfg6.N) :
    (dat6 V c).flushed 2 t = ((cfg6.win 2).blk t).view.read (Elt Ideal) (Gcn.mm (V c main_v78) (V c main_arg9)) := by
  show (cfg6.win 2).cut (grid6.coords t) ((dat6 V c).after 2 t) = _
  rw [after6_2]
  unfold out6_2
  rw [View.canon_unit_zero zero_offsets]
  simp only [View.ld_unit_zero (S := S2000x128) zero_offsets, View.ld_unit_zero (S := S128x128) zero_offsets]
  obtain ⟨e0, e1, e2, e3, e4, e5, e6⟩ := index_maps t
  funext j
  show k6_pay1 (iblk6 V c 0 t) (iblk6 V c 1 t) j = Gcn.mm (V c main_v78) (V c main_arg9) (((cfg6.win 2).blk t).view.emb j)
  refine (Tiles.pay_mm6 (iblk6 V c 0 t) (iblk6 V c 1 t) j).trans ?_
  refine Eq.trans ?_ (Tiles.mm_apply (V c main_v78) (V c main_arg9) (((cfg6.win 2).blk t).view.emb j)).symm
  refine Finset.sum_congr rfl fun k _ => ?_
  have h0 : ((cfg6.win 0).blk t).view.emb (Tiles.rowAt j k) = lidx_main_v13 (((cfg6.win 2).blk t).view.emb j) k := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 128 + 1 * k.val = k.val; omega
  have h1 : ((cfg6.win 1).blk t).view.emb (Tiles.colAt j k) = ridx_main_v13 (((cfg6.win 2).blk t).view.emb j) k := by
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  show FloatOps.mulf (F := Ideal) (φ := .f32) (V c main_v78 (((cfg6.win 0).blk t).view.emb (Tiles.rowAt j k))) (V c main_arg9 (((cfg6.win 1).blk t).view.emb (Tiles.colAt j k))) = _
  rw [h0, h1]
  rfl

/-- An index of the output lies in point `t`'s block iff each coordinate lies in the block's range on its axis. -/
theorem mem_blk (t : Fin cfg6.N) (i : S100000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v79).slice (win6_2.rect t)).set ↔ _
  rw [View.set_slice_whole, Rect.mem_set_unit]
  exact Iff.rfl

/-- The 50 blocks cover the output: row `r` lies in the block of point `r / 2000`. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := index_onto ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

/-- The output array after the region: the dense transform of the input and the weights as the region found them. -/
theorem final (c : Dev nD) : (dat6 V c).arrAt 2 cfg6.N = Gcn.mm (V c main_v78) (V c main_arg9) :=
  (dat6 V c).arrAt_eq_of_cover 2 _ (fun t _ => flushed_eq V c t) cover

end Cert.Gcn.Region6

end
-- ==== Proof.ChainD.lean ====
/-
  Boundaries 11 to 13 of the kernel program: the third layer's aggregate and combination, the fourth layer's transform.
-/
import proofs.«171248_j55972013802295_1_alg».proof.Proof.ChainC
import proofs.«171248_j55972013802295_1_alg».proof.Proof.Region5
import proofs.«171248_j55972013802295_1_alg».proof.Proof.Region6

set_option maxRecDepth 16384

noncomputable section

namespace Cert.Gcn.Chain

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg) (c : Dev nD)

/-- Boundary 11, after a stretch of host operations: what the stretch computes, as the same operations of the values at
    boundary 10; every other buffer read later is as there. -/
structure At11 : Prop where
  v76 : W11 m ρ c (Proc.devRef .tc main_v76) = ag2 m c
  v77 : W11 m ρ c (Proc.devRef .tc main_v77) = br2 m c
  v63 : W11 m ρ c (Proc.devRef .tc main_v63) = hw2 m c
  v30 : W11 m ρ c (Proc.devRef .tc main_v30) = sc m c
  v1 : W11 m ρ c (Proc.devRef .tc main_v1) = rows m c
  v3 : W11 m ρ c (Proc.devRef .tc main_v3) = cols m c
  v28 : W11 m ρ c (Proc.devRef .tc main_v28) = nrm m c
  a9 : W11 m ρ c (Proc.devRef .tc main_arg9) = (m ((c : Thread nD τ).loc main_arg9))
  a10 : W11 m ρ c (Proc.devRef .tc main_arg10) = (m ((c : Thread nD τ).loc main_arg10))
  a11 : W11 m ρ c (Proc.devRef .tc main_arg11) = (m ((c : Thread nD τ).loc main_arg11))
  a12 : W11 m ρ c (Proc.devRef .tc main_arg12) = (m ((c : Thread nD τ).loc main_arg12))

set_option maxHeartbeats 8000000 in
theorem at11 (p : At10 m ρ c) : At11 m ρ c where
  v76 := by
    show StableHlo.after hostOps5 (W10 m ρ c) (Proc.devRef .tc main_v76) = _
    host_fold
    rw [p.v1, p.v3, p.v28, p.v63]
    rfl
  v77 := by
    show StableHlo.after hostOps5 (W10 m ρ c) (Proc.devRef .tc main_v77) = _
    host_fold
    rw [p.a8]
    rfl
  v63 := by
    show StableHlo.after hostOps5 (W10 m ρ c) (Proc.devRef .tc main_v63) = _
    host_fold <;> exact p.v63
  v30 := by
    show StableHlo.after hostOps5 (W10 m ρ c) (Proc.devRef .tc main_v30) = _
    host_fold <;> exact p.v30
  v1 := by
    show StableHlo.after hostOps5 (W10 m ρ c) (Proc.devRef .tc main_v1) = _
    host_fold <;> exact p.v1
  v3 := by
    show StableHlo.after hostOps5 (W10 m ρ c) (Proc.devRef .tc main_v3) = _
    host_fold <;> exact p.v3
  v28 := by
    show StableHlo.after hostOps5 (W10 m ρ c) (Proc.devRef .tc main_v28) = _
    host_fold <;> exact p.v28
  a9 := by
    show StableHlo.after hostOps5 (W10 m ρ c) (Proc.devRef .tc main_arg9) = _
    host_fold <;> exact p.a9
  a10 := by
    show StableHlo.after hostOps5 (W10 m ρ c) (Proc.devRef .tc main_arg10) = _
    host_fold <;> exact p.a10
  a11 := by
    show StableHlo.after hostOps5 (W10 m ρ c) (Proc.devRef .tc main_arg11) = _
    host_fold <;> exact p.a11
  a12 := by
    show StableHlo.after hostOps5 (W10 m ρ c) (Proc.devRef .tc main_arg12) = _
    host_fold <;> exact p.a12

/-- Boundary 12, after kernel region 5: its output holds the region's whole-array function of its inputs; every other
    buffer read later is as at boundary 11. -/
structure At12 : Prop where
  v78 : W12 m ρ c (Proc.devRef .tc main_v78) = h3 m c
  v1 : W12 m ρ c (Proc.devRef .tc main_v1) = rows m c
  v3 : W12 m ρ c (Proc.devRef .tc main_v3) = cols m c
  v28 : W12 m ρ c (Proc.devRef .tc main_v28) = nrm m c
  a9 : W12 m ρ c (Proc.devRef .tc main_arg9) = (m ((c : Thread nD τ).loc main_arg9))
  a10 : W12 m ρ c (Proc.devRef .tc main_arg10) = (m ((c : Thread nD τ).loc main_arg10))
  a11 : W12 m ρ c (Proc.devRef .tc main_arg11) = (m ((c : Thread nD τ).loc main_arg11))
  a12 : W12 m ρ c (Proc.devRef .tc main_arg12) = (m ((c : Thread nD τ).loc main_arg12))
  v30 : W12 m ρ c (Proc.devRef .tc main_v30) = sc m c

set_option maxHeartbeats 8000000 in
theorem at12 (p : At11 m ρ c) : At12 m ρ c where
  v78 := (W12_arr m ρ c 4).trans ((Region5.final (V11 m ρ) c).trans
    (show Gcn.relu (Gcn.comb (W11 m ρ c (Proc.devRef .tc main_v76)) (W11 m ρ c (Proc.devRef .tc main_v63)) (W11 m ρ c (Proc.devRef .tc main_v30)) (W11 m ρ c (Proc.devRef .tc main_v77))) = h3 m c from by rw [p.v76, p.v63, p.v30, p.v77]; rfl))
  v1 := (W12_of_ne m ρ c main_v1 (by decide)).trans p.v1
  v3 := (W12_of_ne m ρ c main_v3 (by decide)).trans p.v3
  v28 := (W12_of_ne m ρ c main_v28 (by decide)).trans p.v28
  a9 := (W12_of_ne m ρ c main_arg9 (by decide)).trans p.a9
  a10 := (W12_of_ne m ρ c main_arg10 (by decide)).trans p.a10
  a11 := (W12_of_ne m ρ c main_arg11 (by decide)).trans p.a11
  a12 := (W12_of_ne m ρ c main_arg12 (by decide)).trans p.a12
  v30 := (W12_arr m ρ c 2).trans (((dat5 (V11 m ρ) c).arrAt_in 2 rfl _).trans ((A_eq5 (V11 m ρ) c 2).trans p.v30))

/-- Boundary 13, after kernel region 6: its output holds the region's whole-array function of its inputs; every other
    buffer read later is as at boundary 12. -/
structure At13 : Prop where
  v79 : W13 m ρ c (Proc.devRef .tc main_v79) = hw3 m c
  v1 : W13 m ρ c (Proc.devRef .tc main_v1) = rows m c
  v3 : W13 m ρ c (Proc.devRef .tc main_v3) = cols m c
  v28 : W13 m ρ c (Proc.devRef .tc main_v28) = nrm m c
  v30 : W13 m ρ c (Proc.devRef .tc main_v30) = sc m c
  a10 : W13 m ρ c (Proc.devRef .tc main_arg10) = (m ((c : Thread nD τ).loc main_arg10))
  a11 : W13 m ρ c (Proc.devRef .tc main_arg11) = (m ((c : Thread nD τ).loc main_arg11))
  a12 : W13 m ρ c (Proc.devRef .tc main_arg12) = (m ((c : Thread nD τ).loc main_arg12))

set_option maxHeartbeats 8000000 in
theorem at13 (p : At12 m ρ c) : At13 m ρ c where
  v79 := (W13_arr m ρ c 2).trans ((Region6.final (V12 m ρ) c).trans
    (show Gcn.mm (W12 m ρ c (Proc.devRef .tc main_v78)) (W12 m ρ c (Proc.devRef .tc main_arg9)) = hw3 m c from by rw [p.v78, p.a9]; rfl))
  v1 := (W13_of_ne m ρ c main_v1 (by decide)).trans p.v1
  v3 := (W13_of_ne m ρ c main_v3 (by decide)).trans p.v3
  v28 := (W13_of_ne m ρ c main_v28 (by decide)).trans p.v28
  v30 := (W13_of_ne m ρ c main_v30 (by decide)).trans p.v30
  a10 := (W13_of_ne m ρ c main_arg10 (by decide)).trans p.a10
  a11 := (W13_of_ne m ρ c main_arg11 (by decide)).trans p.a11
  a12 := (W13_of_ne m ρ c main_arg12 (by decide)).trans p.a12

end Cert.Gcn.Chain

end
-- ==== Proof.Region7.lean ====
/-
  Kernel region 7: one layer's combination, 50 grid points, point `t` taking rows `2000·t … 2000·t + 1999` of the
  aggregated matrix, of the transformed matrix and of the self-loop column, and the whole bias row, and writing the same
  rows of its output: `a + hw · s + b`, entry by entry. Each written block is the matching
  block of that whole-array function of the arrays as the region finds them, and the 50 blocks tile the output.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region7

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output move down one block of rows per
    point; the bias row stays. -/
theorem index_maps : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 ∧ t.val < 50 :=
  (by decide +kernel : ∀ t : Fin grid7.N, _)

/-- Every block of rows is some point's. -/
theorem index_onto : ∀ q : Fin 50, ∃ t : Fin cfg7.N, win7_4.index t = ![q.val, 0] :=
  (by decide +kernel : ∀ q : Fin 50, ∃ t : Fin grid7.N, win7_4.index t = ![q.val, 0])

/-- What point `t` writes back is block `t` of the layer's combination of the arrays as the region finds them. -/
theorem flushed_eq (c : Dev nD) (t : Fin cfg7.N) :
    (dat7 V c).flushed 4 t = ((cfg7.win 4).blk t).view.read (Elt Ideal) (Gcn.comb (V c main_v92) (V c main_v79) (V c main_v30) (V c main_v93)) := by
  show (cfg7.win 4).cut (grid7.coords t) ((dat7 V c).after 4 t) = _
  rw [after7_4]
  unfold out7_4
  rw [View.canon_unit_zero zero_offsets]
  simp only [View.ld_unit_zero (S := S2000x128) zero_offsets, View.ld_unit_zero (S := S2000x1) zero_offsets, View.ld_unit_zero (S := S1x128) zero_offsets]
  obtain ⟨e0, e1, e2, e3, e4, e5, e6, e7, e8, e9, e10⟩ := index_maps t
  funext j
  show k7_pay1 (iblk7 V c 0 t) (iblk7 V c 1 t) (iblk7 V c 2 t) (iblk7 V c 3 t) j = (Gcn.comb (V c main_v92) (V c main_v79) (V c main_v30) (V c main_v93)) (((cfg7.win 4).blk t).view.emb j)
  refine (Tiles.pay_comb7 (iblk7 V c 0 t) (iblk7 V c 1 t) (iblk7 V c 2 t) (iblk7 V c 3 t) j).trans ?_
  refine Eq.trans ?_ (Tiles.comb_apply (V c main_v92) (V c main_v79) (V c main_v30) (V c main_v93) (((cfg7.win 4).blk t).view.emb j)).symm
  have h0 : ((cfg7.win 0).blk t).view.emb j = ((cfg7.win 4).blk t).view.emb j := by
    funext a; apply Fin.ext
    match a with
    | ⟨0, _⟩ => show win7_0.index t (0 : Fin 2) * 2000 + 1 * (j 0).val = win7_4.index t (0 : Fin 2) * 2000 + 1 * (j 0).val; omega
    | ⟨1, _⟩ => show win7_0.index t (1 : Fin 2) * 128 + 1 * (j 1).val = win7_4.index t (1 : Fin 2) * 128 + 1 * (j 1).val; omega
  have h1 : ((cfg7.win 1).blk t).view.emb j = ((cfg7.win 4).blk t).view.emb j := by
    funext a; apply Fin.ext
    match a with
    | ⟨0, _⟩ => show win7_1.index t (0 : Fin 2) * 2000 + 1 * (j 0).val = win7_4.index t (0 : Fin 2) * 2000 + 1 * (j 0).val; omega
    | ⟨1, _⟩ => show win7_1.index t (1 : Fin 2) * 128 + 1 * (j 1).val = win7_4.index t (1 : Fin 2) * 128 + 1 * (j 1).val; omega
  have h2 : ((cfg7.win 2).blk t).view.emb (Tiles.sideAt j) = Tiles.nodeAt (((cfg7.win 4).blk t).view.emb j) := by
    funext a; apply Fin.ext
    match a with
    | ⟨0, _⟩ => show win7_2.index t (0 : Fin 2) * 2000 + 1 * (j 0).val = win7_4.index t (0 : Fin 2) * 2000 + 1 * (j 0).val; omega
    | ⟨1, _⟩ => show win7_2.index t (1 : Fin 2) * 1 + 1 * 0 = 0; omega
  have h3 : ((cfg7.win 3).blk t).view.emb (Tiles.topAt j) = Tiles.biasAt (((cfg7.win 4).blk t).view.emb j) := by
    funext a; apply Fin.ext
    match a with
    | ⟨0, _⟩ => show win7_3.index t (0 : Fin 2) * 1 + 1 * 0 = 0; omega
    | ⟨1, _⟩ => show win7_3.index t (1 : Fin 2) * 128 + 1 * (j 1).val = win7_4.index t (1 : Fin 2) * 128 + 1 * (j 1).val; omega
  show FloatOps.addf (F := Ideal) (φ := .f32) (FloatOps.addf (V c main_v92 (((cfg7.win 0).blk t).view.emb j)) (FloatOps.mulf (V c main_v79 (((cfg7.win 1).blk t).view.emb j)) (V c main_v30 (((cfg7.win 2).blk t).view.emb (Tiles.sideAt j))))) (V c main_v93 (((cfg7.win 3).blk t).view.emb (Tiles.topAt j))) = _
  rw [h0, h1, h2, h3]

/-- An index of the output lies in point `t`'s block iff each coordinate lies in the block's range on its axis. -/
theorem mem_blk (t : Fin cfg7.N) (i : S100000x128.Idx) :
    i ∈ ((cfg7.win 4).blk t).view.set ↔ ∀ a : Fin 2, win7_4.index t a * S2000x128.size a ≤ (i a).val ∧ (i a).val < win7_4.index t a * S2000x128.size a + S2000x128.size a := by
  show i ∈ ((View.whole main_v94).slice (win7_4.rect t)).set ↔ _
  rw [View.set_slice_whole, Rect.mem_set_unit]
  exact Iff.rfl

/-- The 50 blocks cover the output: row `r` lies in the block of point `r / 2000`. -/
theorem cover (i : S100000x128.Idx) : ∃ t : Fin cfg7.N, (cfg7.win 4).flush t = true ∧ i ∈ ((cfg7.win 4).blk t).view.set := by
  have hi0 : (i 0).val < 100000 := (i 0).isLt
  have hi1 : (i 1).val < 128 := (i 1).isLt
  obtain ⟨t, ht⟩ := index_onto ⟨(i 0).val / 2000, by omega⟩
  have q0 : win7_4.index t (0 : Fin 2) = (i 0).val / 2000 := congrFun ht 0
  have q1 : win7_4.index t (1 : Fin 2) = 0 := congrFun ht 1
  refine ⟨t, flush7_4 t, ?_⟩
  rw [mem_blk]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 128 ≤ (i 1).val ∧ (i 1).val < win7_4.index t (1 : Fin 2) * 128 + 128; omega

/-- The output array after the region: the layer's combination of the arrays as the region found them. -/
theorem final (c : Dev nD) : (dat7 V c).arrAt 4 cfg7.N = Gcn.comb (V c main_v92) (V c main_v79) (V c main_v30) (V c main_v93) :=
  (dat7 V c).arrAt_eq_of_cover 4 _ (fun t _ => flushed_eq V c t) cover

end Cert.Gcn.Region7

end
-- ==== Proof.Region8.lean ====
/-
  Kernel region 8: the linear head, 50 grid points, point `t` taking rows `2000·t … 2000·t + 1999` of the last layer's
  matrix, the whole weight matrix and the whole bias row, and writing the same rows of the result: `x · W + b`. Each
  written block is the matching block of `Gcn.head` of the arrays as the region finds them, and the 50 blocks tile
  the result.
-/
import proofs.«171248_j55972013802295_1_alg».proof.Proof.Gen.KernelIdeal.Frame
import proofs.«171248_j55972013802295_1_alg».proof.Proof.Tiles
import Idealize.ShloMosaic.Lib.Pipeline.Value

set_option maxRecDepth 16384

noncomputable section

namespace Cert.Gcn.Region8

open Cert.KernelIdeal Cert.KernelIdeal.Gen Idealize.ShloMosaic Idealize.ShloMosaic.TcCoe Idealize.SL.Sem
open Idealize.ShloMosaic.Pipeline (Dat)
open Cert.ReferenceIdeal.Read (lidx_main_v13 ridx_main_v13)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the result move down one block of rows per point; the weights
    and the bias row stay. -/
theorem index_maps : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 ∧ t.val < 50 :=
  (by decide +kernel : ∀ t : Fin grid8.N, _)

/-- Every block of rows is some point's. -/
theorem index_onto : ∀ q : Fin 50, ∃ t : Fin cfg8.N, win8_3.index t = ![q.val, 0] :=
  (by decide +kernel : ∀ q : Fin 50, ∃ t : Fin grid8.N, win8_3.index t = ![q.val, 0])

/-- What point `t` writes back is block `t` of the head of the arrays as the region finds them. -/
theorem flushed_eq (c : Dev nD) (t : Fin cfg8.N) :
    (dat8 V c).flushed 3 t = ((cfg8.win 3).blk t).view.read (Elt Ideal) (Gcn.head (V c main_v94) (V c main_arg11) (V c main_v95)) := by
  show (cfg8.win 3).cut (grid8.coords t) ((dat8 V c).after 3 t) = _
  rw [after8_3]
  unfold out8_3
  rw [View.canon_unit_zero zero_offsets]
  simp only [View.ld_unit_zero (S := S2000x128) zero_offsets, View.ld_unit_zero (S := S128x128) zero_offsets, View.ld_unit_zero (S := S1x128) zero_offsets]
  obtain ⟨e0, e1, e2, e3, e4, e5, e6, e7, e8⟩ := index_maps t
  funext j
  show k8_pay1 (iblk8 V c 0 t) (iblk8 V c 1 t) (iblk8 V c 2 t) j = (Gcn.head (V c main_v94) (V c main_arg11) (V c main_v95)) (((cfg8.win 3).blk t).view.emb j)
  refine (Tiles.pay_head8 (iblk8 V c 0 t) (iblk8 V c 1 t) (iblk8 V c 2 t) j).trans ?_
  refine Eq.trans ?_ (Tiles.head_apply (V c main_v94) (V c main_arg11) (V c main_v95) (((cfg8.win 3).blk t).view.emb j)).symm
  have h2 : ((cfg8.win 2).blk t).view.emb (Tiles.topAt j) = Tiles.biasAt (((cfg8.win 3).blk t).view.emb j) := by
    funext a; apply Fin.ext
    match a with
    | ⟨0, _⟩ => show win8_2.index t (0 : Fin 2) * 1 + 1 * 0 = 0; omega
    | ⟨1, _⟩ => show win8_2.index t (1 : Fin 2) * 128 + 1 * (j 1).val = win8_3.index t (1 : Fin 2) * 128 + 1 * (j 1).val; omega
  refine congrArg₂ (FloatOps.addf (F := Ideal) (φ := .f32)) ?_ ?_
  · refine Finset.sum_congr rfl fun k _ => ?_
    have h0 : ((cfg8.win 0).blk t).view.emb (Tiles.rowAt j k) = lidx_main_v13 (((cfg8.win 3).blk t).view.emb j) k := by
      funext a; apply Fin.ext
      match a with
      | ⟨0, _⟩ => show win8_0.index t (0 : Fin 2) * 2000 + 1 * (j 0).val = win8_3.index t (0 : Fin 2) * 2000 + 1 * (j 0).val; omega
      | ⟨1, _⟩ => show win8_0.index t (1 : Fin 2) * 128 + 1 * k.val = k.val; omega
    have h1 : ((cfg8.win 1).blk t).view.emb (Tiles.colAt j k) = ridx_main_v13 (((cfg8.win 3).blk t).view.emb j) k := by
      funext a; apply Fin.ext
      match a with
      | ⟨0, _⟩ => show win8_1.index t (0 : Fin 2) * 128 + 1 * k.val = k.val; omega
      | ⟨1, _⟩ => show win8_1.index t (1 : Fin 2) * 128 + 1 * (j 1).val = win8_3.index t (1 : Fin 2) * 128 + 1 * (j 1).val; omega
    show FloatOps.mulf (F := Ideal) (φ := .f32) (V c main_v94 (((cfg8.win 0).blk t).view.emb (Tiles.rowAt j k))) (V c main_arg11 (((cfg8.win 1).blk t).view.emb (Tiles.colAt j k))) = _
    rw [h0, h1]
    rfl
  · show V c main_v95 (((cfg8.win 2).blk t).view.emb (Tiles.topAt j)) = _
    rw [h2]

/-- An index of the result lies in point `t`'s block iff each coordinate lies in the block's range on its axis. -/
theorem mem_blk (t : Fin cfg8.N) (i : S100000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole main_v96).slice (win8_3.rect t)).set ↔ _
  rw [View.set_slice_whole, Rect.mem_set_unit]
  exact Iff.rfl

/-- The 50 blocks cover the result: row `r` lies in the block of point `r / 2000`. -/
theorem cover (i : S100000x128.Idx) : ∃ t : Fin cfg8.N, (cfg8.win 3).flush t = true ∧ i ∈ ((cfg8.win 3).blk t).view.set := by
  have hi0 : (i 0).val < 100000 := (i 0).isLt
  have hi1 : (i 1).val < 128 := (i 1).isLt
  obtain ⟨t, ht⟩ := index_onto ⟨(i 0).val / 2000, by omega⟩
  have q0 : win8_3.index t (0 : Fin 2) = (i 0).val / 2000 := congrFun ht 0
  have q1 : win8_3.index t (1 : Fin 2) = 0 := congrFun ht 1
  refine ⟨t, flush8_3 t, ?_⟩
  rw [mem_blk]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 128 ≤ (i 1).val ∧ (i 1).val < win8_3.index t (1 : Fin 2) * 128 + 128; omega

/-- The result array after the region: the head of the arrays as the region found them. -/
theorem final (c : Dev nD) : (dat8 V c).arrAt 3 cfg8.N = Gcn.head (V c main_v94) (V c main_arg11) (V c main_v95) :=
  (dat8 V c).arrAt_eq_of_cover 3 _ (fun t _ => flushed_eq V c t) cover

end Cert.Gcn.Region8

end
-- ==== Proof.ChainE.lean ====
/-
  Boundaries 14 to 17 of the kernel program: the fourth layer's aggregate and combination (no maximum), the head.
-/
import proofs.«171248_j55972013802295_1_alg».proof.Proof.ChainD
import proofs.«171248_j55972013802295_1_alg».proof.Proof.Region7
import proofs.«171248_j55972013802295_1_alg».proof.Proof.Region8

set_option maxRecDepth 16384

noncomputable section

namespace Cert.Gcn.Chain

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg) (c : Dev nD)

/-- Boundary 14, after a stretch of host operations: what the stretch computes, as the same operations of the values at
    boundary 13; every other buffer read later is as there. -/
structure At14 : Prop where
  v92 : W14 m ρ c (Proc.devRef .tc main_v92) = ag3 m c
  v93 : W14 m ρ c (Proc.devRef .tc main_v93) = br3 m c
  v79 : W14 m ρ c (Proc.devRef .tc main_v79) = hw3 m c
  v30 : W14 m ρ c (Proc.devRef .tc main_v30) = sc m c
  a11 : W14 m ρ c (Proc.devRef .tc main_arg11) = (m ((c : Thread nD τ).loc main_arg11))
  a12 : W14 m ρ c (Proc.devRef .tc main_arg12) = (m ((c : Thread nD τ).loc main_arg12))

set_option maxHeartbeats 8000000 in
theorem at14 (p : At13 m ρ c) : At14 m ρ c where
  v92 := by
    show StableHlo.after hostOps7 (W13 m ρ c) (Proc.devRef .tc main_v92) = _
    host_fold
    rw [p.v1, p.v3, p.v28, p.v79]
    rfl
  v93 := by
    show StableHlo.after hostOps7 (W13 m ρ c) (Proc.devRef .tc main_v93) = _
    host_fold
    rw [p.a10]
    rfl
  v79 := by
    show StableHlo.after hostOps7 (W13 m ρ c) (Proc.devRef .tc main_v79) = _
    host_fold <;> exact p.v79
  v30 := by
    show StableHlo.after hostOps7 (W13 m ρ c) (Proc.devRef .tc main_v30) = _
    host_fold <;> exact p.v30
  a11 := by
    show StableHlo.after hostOps7 (W13 m ρ c) (Proc.devRef .tc main_arg11) = _
    host_fold <;> exact p.a11
  a12 := by
    show StableHlo.after hostOps7 (W13 m ρ c) (Proc.devRef .tc main_arg12) = _
    host_fold <;> exact p.a12

/-- Boundary 15, after kernel region 7: its output holds the region's whole-array function of its inputs; every other
    buffer read later is as at boundary 14. -/
structure At15 : Prop where
  v94 : W15 m ρ c (Proc.devRef .tc main_v94) = h4 m c
  a11 : W15 m ρ c (Proc.devRef .tc main_arg11) = (m ((c : Thread nD τ).loc main_arg11))
  a12 : W15 m ρ c (Proc.devRef .tc main_arg12) = (m ((c : Thread nD τ).loc main_arg12))

set_option maxHeartbeats 8000000 in
theorem at15 (p : At14 m ρ c) : At15 m ρ c where
  v94 := (W15_arr m ρ c 4).trans ((Region7.final (V14 m ρ) c).trans
    (show Gcn.comb (W14 m ρ c (Proc.devRef .tc main_v92)) (W14 m ρ c (Proc.devRef .tc main_v79)) (W14 m ρ c (Proc.devRef .tc main_v30)) (W14 m ρ c (Proc.devRef .tc main_v93)) = h4 m c from by rw [p.v92, p.v79, p.v30, p.v93]; rfl))
  a11 := (W15_of_ne m ρ c main_arg11 (by decide)).trans p.a11
  a12 := (W15_of_ne m ρ c main_arg12 (by decide)).trans p.a12

/-- Boundary 16, after a stretch of host operations: what the stretch computes, as the same operations of the values at
    boundary 15; every other buffer read later is as there. -/
structure At16 : Prop where
  v95 : W16 m ρ c (Proc.devRef .tc main_v95) = bro m c
  v94 : W16 m ρ c (Proc.devRef .tc main_v94) = h4 m c
  a11 : W16 m ρ c (Proc.devRef .tc main_arg11) = (m ((c : Thread nD τ).loc main_arg11))

set_option maxHeartbeats 8000000 in
theorem at16 (p : At15 m ρ c) : At16 m ρ c where
  v95 := by
    show StableHlo.after hostOps8 (W15 m ρ c) (Proc.devRef .tc main_v95) = _
    host_fold
    rw [p.a12]
    rfl
  v94 := by
    show StableHlo.after hostOps8 (W15 m ρ c) (Proc.devRef .tc main_v94) = _
    host_fold <;> exact p.v94
  a11 := by
    show StableHlo.after hostOps8 (W15 m ρ c) (Proc.devRef .tc main_arg11) = _
    host_fold <;> exact p.a11

/-- Boundary 17, after kernel region 8: its output holds the region's whole-array function of its inputs; every other
    buffer read later is as at boundary 16. -/
structure At17 : Prop where
  v96 : W17 m ρ c (Proc.devRef .tc main_v96) = result m c

set_option maxHeartbeats 8000000 in
theorem at17 (p : At16 m ρ c) : At17 m ρ c where
  v96 := (W17_arr m ρ c 3).trans ((Region8.final (V16 m ρ) c).trans
    (show Gcn.head (W16 m ρ c (Proc.devRef .tc main_v94)) (W16 m ρ c (Proc.devRef .tc main_arg11)) (W16 m ρ c (Proc.devRef .tc main_v95)) = result m c from by rw [p.v94, p.a11, p.v95]; rfl))

/-- The kernel program's result buffer ends holding the network of the launch arguments: the boundaries chained from
    the launch to the last region. -/
theorem kernel_result : W17 m ρ c (Proc.devRef .tc main_v96)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (at17 m ρ c (at16 m ρ c (at15 m ρ c (at14 m ρ c (at13 m ρ c (at12 m ρ c (at11 m ρ c (at10 m ρ c (at9 m ρ c (at8 m ρ c (at7 m ρ c (at6 m ρ c (at5 m ρ c (at4 m ρ c (at3 m ρ c))))))))))))))).v96.trans (result_eq m c)

end Cert.Gcn.Chain

end
-- ==== Proof.RefSide.lean ====
/-
  The reference program's result is the network of `Spec`: its generated run ends at the composed term of its host
  operations, and that term is `Gcn.net` of the argument arrays once the definitions are opened.
-/
import proofs.«171248_j55972013802295_1_alg».proof.Proof.Gen.ReferenceIdeal.Run
import proofs.«171248_j55972013802295_1_alg».proof.Proof.Spec

noncomputable section

namespace Cert.Gcn

open Idealize.ShloMosaic Idealize.ShloMosaic.TcCoe Idealize.SL.Sem Cert.ReferenceIdeal

set_option maxRecDepth 8192 in
theorem ref_result (m : (ℓ : Loc nD τ sig) → Buf (Elt Ideal) ℓ) (c : Dev nD) :
    Cert.ReferenceIdeal.Value.res_main_v171 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v171 net head conv comb agg mm relu biasRow selfCol norm dis deg colScatter wrap colIdx rowIdx zeroMat zeroVec
  rfl

end Cert.Gcn

end
-- ==== Proof.lean ====
/-
  A four-layer graph convolution network with a linear head, as Pallas kernels among host operations, against its
  jnp reference, over the extended reals.
  Both programs compute one function of the thirteen arguments, `Gcn.net` (Proof/Spec.lean): per layer the dense
  transform `h · W`, the normalised aggregation over incoming edges, and `agg + hw · d² + b` (then `max(·, 0)` in the
  first three layers); the head is `h · W_out + b_out`. The reference spells every step as a host operation, so its
  result term is `Gcn.net` by unfolding (Proof/RefSide.lean). The kernel program computes the edge normalisation,
  the gathers and the scatter-adds by the same host operations, and the dense transforms, the combinations and the
  head in nine kernel regions, each over 50 blocks of 2000 rows: a region's output array is the whole-array function
  of its inputs (Proof/Region0.lean … Region8.lean, over the per-block readings of Proof/Tiles.lean: a blocked matrix
  product is the whole one entry by entry, rounding the operands to bf16 is the identity here, and the pointwise
  combination reads its column and row operands at the entry's row and column), and chaining the program's seventeen
  segments from the launch memory gives `Gcn.net` of the arguments at the result buffer (Proof/ChainA.lean …
  ChainE.lean over the run of Proof/KernelRun.lean). No law of arithmetic is used beyond reading both sides entry by
  entry, so the precondition is never opened. The idealization rewrote nothing, so `preserves` is trivial.
-/
import proofs.«171248_j55972013802295_1_alg».proof.Defs
import proofs.«171248_j55972013802295_1_alg».proof.Proof.Gen.Kernel
import proofs.«171248_j55972013802295_1_alg».proof.Proof.Gen.Kernel.Skeleton
import proofs.«171248_j55972013802295_1_alg».proof.Proof.Gen.Kernel.Launch
import proofs.«171248_j55972013802295_1_alg».proof.Proof.Gen.Kernel.Points
import proofs.«171248_j55972013802295_1_alg».proof.Proof.Gen.Kernel.Frame
import proofs.«171248_j55972013802295_1_alg».proof.Proof.Gen.KernelIdeal
import proofs.«171248_j55972013802295_1_alg».proof.Proof.Gen.KernelIdeal.Skeleton
import proofs.«171248_j55972013802295_1_alg».proof.Proof.Gen.KernelIdeal.Launch
import proofs.«171248_j55972013802295_1_alg».proof.Proof.Gen.KernelIdeal.Points
import proofs.«171248_j55972013802295_1_alg».proof.Proof.Gen.KernelIdeal.Frame
import proofs.«171248_j55972013802295_1_alg».proof.Proof.Gen.ReferenceIdeal
import proofs.«171248_j55972013802295_1_alg».proof.Proof.Gen.Pre_finite_inputs
import proofs.«171248_j55972013802295_1_alg».proof.Proof.Gen.ReferenceIdeal.Run
import proofs.«171248_j55972013802295_1_alg».proof.Proof.Gen.ReferenceIdeal.Read
import proofs.«171248_j55972013802295_1_alg».proof.Proof.KernelRun
import proofs.«171248_j55972013802295_1_alg».proof.Proof.ChainE
import proofs.«171248_j55972013802295_1_alg».proof.Proof.RefSide
import Idealize.ShloMosaic.Adequacy
import Idealize.ShloMosaic.Init

noncomputable section

namespace Cert.Proof

open Idealize.ShloMosaic Idealize.ShloMosaic.TcCoe Idealize.SL.Sem

/-- The three programs run, nothing faulting, and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun _ h c => ⟨(h c).1.trans (Cert.Gcn.Chain.kernel_result m ρ c), (h c).2⟩)
      (Cert.KernelIdeal.GcnRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.Gcn.ref_result, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
